-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_2)) (v4 : (c : Dev Cert.KernelIdeal.nD) → Buf (Elt Ideal) ((c.tc : Thread Cert.KernelIdeal.nD Cert.KernelIdeal.τ).loc Cert.KernelIdeal.main_v0_3)) (v5 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_v0_3) = v4 c
          ∧ r.2.mem ((c.tc : Thread Cert.KernelIdeal.nD Cert.KernelIdeal.τ).loc Cert.KernelIdeal.main_v0_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_v80) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S224x512x512 : Shape := ⟨3, ![224, 512, 512]⟩
abbrev S_ : Shape := ⟨0, ![]⟩

class Facts : Prop where
  bcast_S_S224x512x512 : S_.BroadcastsInDim S224x512x512 (![] : Fin 0 → Fin S224x512x512.rank)
  reducesTo_S224x512x512_S_d0_1_2 : S224x512x512.ReducesTo [0, 1, 2] S_
  h_S_ : 0 < S_.numel

variable [Facts]

def fn {F : FTy → Type} [FloatOps F] (main_arg0 : FVec F S224x512x512 .f32) : IVec S_ 1 :=
  let main_v0 : FVec F S224x512x512 .f32 := Host.absf main_arg0
  let main_cst : FVec F S_ .f32 := constant S_ .f32 0x7F800000#32
  let main_v1 : FVec F S224x512x512 .f32 := broadcastInDim S224x512x512 ![] bcast_S_S224x512x512 main_cst
  let main_v2 : IVec S224x512x512 1 := cmpf .olt main_v0 main_v1
  let main_c : IVec S_ 1 := constantI S_ 1 1#1
  let main_v3 : IVec S_ 1 := (fun x v => Host.reduce IntOp.andi x v reducesTo_S224x512x512_S_d0_1_2 h_S_) main_v2 main_c
  main_v3
-- ==== Kernel.lean ====
abbrev S224x512x512 : Shape := ⟨3, ![224, 512, 512]⟩
abbrev S1x512x512 : Shape := ⟨3, ![1, 512, 512]⟩

abbrev nBuf : Space → Nat
  | .hbm => 5
  | .vmem => 12
  | .smem => 0
  | _ => 0

abbrev bufTy : (tb : Table) → Fin (tcTables nBuf tb) → BufTy
  | .hbm, ⟨0, _⟩ => ⟨S224x512x512, .f32⟩
  | .hbm, ⟨1, _⟩ => ⟨S224x512x512, .f32⟩
  | .hbm, ⟨2, _⟩ => ⟨S224x512x512, .f32⟩
  | .hbm, ⟨3, _⟩ => ⟨S224x512x512, .i32⟩
  | .hbm, ⟨4, _⟩ => ⟨S224x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .i32⟩
  | .local _ .vmem, ⟨9, _⟩ => ⟨S1x512x512, .i32⟩
  | .local _ .vmem, ⟨10, _⟩ => ⟨S1x512x512, .f32⟩
  | .local _ .vmem, ⟨11, _⟩ => ⟨S1x512x512, .f32⟩
  | _, _ => ⟨S224x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![224], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  rotates_S1x512x512_d2 : S1x512x512.Rotates 2 none
  rotates_S1x512x512_d1 : S1x512x512.Rotates 1 none
  iota_S1x512x512_d1_w32 : S1x512x512.Iotas .tc 32 [1]
  iota_S1x512x512_d2_w32 : S1x512x512.Iotas .tc 32 [2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S224x512x512.size a
  hwx0_0 : ∀ i : grid0.Coords, EltTy.bits .f32 = 32 ∨ (Rect.block (s := S224x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S224x512x512.size a
  hwx0_1 : ∀ i : grid0.Coords, EltTy.bits .f32 = 32 ∨ (Rect.block (s := S224x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S224x512x512.size a
  hwx0_2 : ∀ i : grid0.Coords, EltTy.bits .f32 = 32 ∨ (Rect.block (s := S224x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S224x512x512.size a
  hwx0_3 : ∀ i : grid0.Coords, EltTy.bits .f32 = 32 ∨ (Rect.block (s := S224x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S224x512x512.size a
  hwx0_4 : ∀ i : grid0.Coords, EltTy.bits .i32 = 32 ∨ (Rect.block (s := S224x512x512) S1x512x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S224x512x512.size a
  hwx0_5 : ∀ i : grid0.Coords, EltTy.bits .f32 = 32 ∨ (Rect.block (s := S224x512x512) S1x512x512.size (cc0_transform_5 i) (hinb0_5 i)).WholeWords (EltTy.packing .f32)

variable [Facts₀]

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S224x512x512 : Shape := ⟨3, ![224, 512, 512]⟩
abbrev S_ : Shape := ⟨0, ![]⟩
abbrev S224x512x513 : Shape := ⟨3, ![224, 512, 513]⟩
abbrev S224x513x512 : Shape := ⟨3, ![224, 513, 512]⟩
abbrev S224x513x513 : Shape := ⟨3, ![224, 513, 513]⟩
abbrev S512 : Shape := ⟨1, ![512]⟩
abbrev S1x512x1 : Shape := ⟨3, ![1, 512, 1]⟩
abbrev S1x1x512 : Shape := ⟨3, ![1, 1, 512]⟩
abbrev S1x512x512 : Shape := ⟨3, ![1, 512, 512]⟩
abbrev S223x512x512 : Shape := ⟨3, ![223, 512, 512]⟩
abbrev S224 : Shape := ⟨1, ![224]⟩
abbrev S224x1x1 : Shape := ⟨3, ![224, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S224x512x512, .f32⟩
  | .hbm, ⟨1, _⟩ => ⟨S_, .i32⟩
  | .hbm, ⟨2, _⟩ => ⟨S_, .f32⟩
  | .hbm, ⟨3, _⟩ => ⟨S224x512x513, .f32⟩
  | .hbm, ⟨4, _⟩ => ⟨S224x512x512, .f32⟩
  | .hbm, ⟨5, _⟩ => ⟨S_, .i32⟩
  | .hbm, ⟨6, _⟩ => ⟨S_, .f32⟩
  | .hbm, ⟨7, _⟩ => ⟨S224x513x512, .f32⟩
  | .hbm, ⟨8, _⟩ => ⟨S224x512x512, .f32⟩
  | .hbm, ⟨9, _⟩ => ⟨S_, .i32⟩
  | .hbm, ⟨10, _⟩ => ⟨S_, .f32⟩
  | .hbm, ⟨11, _⟩ => ⟨S224x513x513, .f32⟩
  | .hbm, ⟨12, _⟩ => ⟨S224x512x512, .f32⟩
  | .hbm, ⟨13, _⟩ => ⟨S_, .i32⟩
  | .hbm, ⟨14, _⟩ => ⟨S_, .f32⟩
  | .hbm, ⟨15, _⟩ => ⟨S224x513x513, .f32⟩
  | .hbm, ⟨16, _⟩ => ⟨S224x512x512, .f32⟩
  | .hbm, ⟨17, _⟩ => ⟨S512, .i32⟩
  | .hbm, ⟨18, _⟩ => ⟨S1x512x1, .i32⟩
  | .hbm, ⟨19, _⟩ => ⟨S512, .i32⟩
  | .hbm, ⟨20, _⟩ => ⟨S1x1x512, .i32⟩
  | .hbm, ⟨21, _⟩ => ⟨S_, .i32⟩
  | .hbm, ⟨22, _⟩ => ⟨S1x512x1, .i32⟩
  | .hbm, ⟨23, _⟩ => ⟨S1x512x1, .i1⟩
  | .hbm, ⟨24, _⟩ => ⟨S_, .i32⟩
  | .hbm, ⟨25, _⟩ => ⟨S1x1x512, .i32⟩
  | .hbm, ⟨26, _⟩ => ⟨S1x1x512, .i1⟩
  | .hbm, ⟨27, _⟩ => ⟨S_, .i32⟩
  | .hbm, ⟨28, _⟩ => ⟨S1x1x512, .i32⟩
  | .hbm, ⟨29, _⟩ => ⟨S1x1x512, .i1⟩
  | .hbm, ⟨30, _⟩ => ⟨S224x512x512, .f32⟩
  | .hbm, ⟨31, _⟩ => ⟨S224x512x512, .f32⟩
  | .hbm, ⟨32, _⟩ => ⟨S224x512x512, .f32⟩
  | .hbm, ⟨33, _⟩ => ⟨S1x1x512, .i1⟩
  | .hbm, ⟨34, _⟩ => ⟨S1x512x512, .i1⟩
  | .hbm, ⟨35, _⟩ => ⟨S1x512x512, .i1⟩
  | .hbm, ⟨36, _⟩ => ⟨S1x512x512, .i1⟩
  | .hbm, ⟨37, _⟩ => ⟨S_, .f32⟩
  | .hbm, ⟨38, _⟩ => ⟨S224x512x512, .f32⟩
  | .hbm, ⟨39, _⟩ => ⟨S224x512x512, .f32⟩
  | .hbm, ⟨40, _⟩ => ⟨S224x512x512, .i1⟩
  | .hbm, ⟨41, _⟩ => ⟨S224x512x512, .f32⟩
  | .hbm, ⟨42, _⟩ => ⟨S1x512x1, .i1⟩
  | .hbm, ⟨43, _⟩ => ⟨S1x512x512, .i1⟩
  | .hbm, ⟨44, _⟩ => ⟨S1x512x512, .i1⟩
  | .hbm, ⟨45, _⟩ => ⟨S1x512x512, .i1⟩
  | .hbm, ⟨46, _⟩ => ⟨S224x512x512, .f32⟩
  | .hbm, ⟨47, _⟩ => ⟨S_, .f32⟩
  | .hbm, ⟨48, _⟩ => ⟨S224x512x512, .f32⟩
  | .hbm, ⟨49, _⟩ => ⟨S224x512x512, .f32⟩
  | .hbm, ⟨50, _⟩ => ⟨S224x512x512, .i1⟩
  | .hbm, ⟨51, _⟩ => ⟨S224x512x512, .f32⟩
  | .hbm, ⟨52, _⟩ => ⟨S1x512x1, .i1⟩
  | .hbm, ⟨53, _⟩ => ⟨S1x512x512, .i1⟩
  | .hbm, ⟨54, _⟩ => ⟨S1x512x512, .i1⟩
  | .hbm, ⟨55, _⟩ => ⟨S1x512x512, .i1⟩
  | .hbm, ⟨56, _⟩ => ⟨S224x512x512, .f32⟩
  | .hbm, ⟨57, _⟩ => ⟨S_, .f32⟩
  | .hbm, ⟨58, _⟩ => ⟨S224x512x512, .f32⟩
  | .hbm, ⟨59, _⟩ => ⟨S224x512x512, .f32⟩
  | .hbm, ⟨60, _⟩ => ⟨S224x512x512, .f32⟩
  | .hbm, ⟨61, _⟩ => ⟨S224x512x512, .i1⟩
  | .hbm, ⟨62, _⟩ => ⟨S224x512x512, .f32⟩
  | .hbm, ⟨63, _⟩ => ⟨S1x512x512, .i1⟩
  | .hbm, ⟨64, _⟩ => ⟨S1x512x512, .i1⟩
  | .hbm, ⟨65, _⟩ => ⟨S1x512x512, .i1⟩
  | .hbm, ⟨66, _⟩ => ⟨S_, .f32⟩
  | .hbm, ⟨67, _⟩ => ⟨S_, .f32⟩
  | .hbm, ⟨68, _⟩ => ⟨S224x512x512, .i1⟩
  | .hbm, ⟨69, _⟩ => ⟨S224x512x512, .f32⟩
  | .hbm, ⟨70, _⟩ => ⟨S224x512x512, .f32⟩
  | .hbm, ⟨71, _⟩ => ⟨S_, .f32⟩
  | .hbm, ⟨72, _⟩ => ⟨S224x512x512, .f32⟩
  | .hbm, ⟨73, _⟩ => ⟨S224x512x512, .f32⟩
  | .hbm, ⟨74, _⟩ => ⟨S_, .f32⟩
  | .hbm, ⟨75, _⟩ => ⟨S1x512x512, .f32⟩
  | .hbm, ⟨76, _⟩ => ⟨S223x512x512, .f32⟩
  | .hbm, ⟨77, _⟩ => ⟨S224x512x512, .f32⟩
  | .hbm, ⟨78, _⟩ => ⟨S224, .i32⟩
  | .hbm, ⟨79, _⟩ => ⟨S224x1x1, .i32⟩
  | .hbm, ⟨80, _⟩ => ⟨S_, .i32⟩
  | .hbm, ⟨81, _⟩ => ⟨S224x1x1, .i32⟩
  | .hbm, ⟨82, _⟩ => ⟨S224x1x1, .i1⟩
  | .hbm, ⟨83, _⟩ => ⟨S224x512x512, .f32⟩
  | .hbm, ⟨84, _⟩ => ⟨S_, .f32⟩
  | .hbm, ⟨85, _⟩ => ⟨S224x512x512, .f32⟩
  | .hbm, ⟨86, _⟩ => ⟨S224x512x512, .f32⟩
  | .hbm, ⟨87, _⟩ => ⟨S224x512x512, .i1⟩
  | .hbm, ⟨88, _⟩ => ⟨S224x512x512, .f32⟩
  | .hbm, ⟨89, _⟩ => ⟨S1x512x512, .i1⟩
  | .hbm, ⟨90, _⟩ => ⟨S1x512x512, .i1⟩
  | .hbm, ⟨91, _⟩ => ⟨S1x512x512, .i1⟩
  | .hbm, ⟨92, _⟩ => ⟨S_, .f32⟩
  | .hbm, ⟨93, _⟩ => ⟨S_, .f32⟩
  | .hbm, ⟨94, _⟩ => ⟨S224x512x512, .i1⟩
  | .hbm, ⟨95, _⟩ => ⟨S224x512x512, .f32⟩
  | .hbm, ⟨96, _⟩ => ⟨S224x512x512, .f32⟩
  | .hbm, ⟨97, _⟩ => ⟨S224x512x512, .i1⟩
  | .hbm, ⟨98, _⟩ => ⟨S224x512x512, .f32⟩
  | .hbm, ⟨99, _⟩ => ⟨S224x512x512, .f32⟩
  | .hbm, ⟨100, _⟩ => ⟨S224x512x512, .f32⟩
  | .hbm, ⟨101, _⟩ => ⟨S224x512x512, .i32⟩
  | .hbm, ⟨102, _⟩ => ⟨S_, .i32⟩
  | .hbm, ⟨103, _⟩ => ⟨S224x512x512, .i32⟩
  | .hbm, ⟨104, _⟩ => ⟨S224x512x512, .i1⟩
  | .hbm, ⟨105, _⟩ => ⟨S_, .i32⟩
  | .hbm, ⟨106, _⟩ => ⟨S224x512x512, .i32⟩
  | .hbm, ⟨107, _⟩ => ⟨S224x512x512, .i32⟩
  | .hbm, ⟨108, _⟩ => ⟨S_, .i32⟩
  | .hbm, ⟨109, _⟩ => ⟨S224x512x512, .i32⟩
  | .hbm, ⟨110, _⟩ => ⟨S224x512x512, .i32⟩
  | .hbm, ⟨111, _⟩ => ⟨S_, .i32⟩
  | .hbm, ⟨112, _⟩ => ⟨S224x512x512, .i32⟩
  | .hbm, ⟨113, _⟩ => ⟨S224x512x512, .i32⟩
  | .hbm, ⟨114, _⟩ => ⟨S224x512x512, .i32⟩
  | .hbm, ⟨115, _⟩ => ⟨S224x512x512, .f32⟩
  | .hbm, ⟨116, _⟩ => ⟨S_, .i32⟩
  | .hbm, ⟨117, _⟩ => ⟨S_, .i32⟩
  | .hbm, ⟨118, _⟩ => ⟨S_, .f32⟩
  | .hbm, ⟨119, _⟩ => ⟨S224x512x512, .f32⟩
  | .hbm, ⟨120, _⟩ => ⟨S224x512x512, .f32⟩
  | .hbm, ⟨121, _⟩ => ⟨S_, .f32⟩
  | .hbm, ⟨122, _⟩ => ⟨S224x512x512, .f32⟩
  | .hbm, ⟨123, _⟩ => ⟨S224x512x512, .f32⟩
  | _, _ => ⟨S224x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call1_v0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call2_v0 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_call3_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_call4_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_call5_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call6_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_call8_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_call9_v0 : Ref sig .tc := ⟨.hbm, 93, rfl⟩
abbrev main_call9_v1 : Ref sig .tc := ⟨.hbm, 94, rfl⟩
abbrev main_call9_v2 : Ref sig .tc := ⟨.hbm, 95, rfl⟩
abbrev main_v65 : Ref sig .tc := ⟨.hbm, 96, rfl⟩
abbrev main_call10_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_c_19 : Ref sig .tc := ⟨.hbm, 117, rfl⟩
abbrev main_call13_v0 : Ref sig .tc := ⟨.hbm, 118, rfl⟩
abbrev main_call13_v1 : Ref sig .tc := ⟨.hbm, 119, rfl⟩
abbrev main_call13_v2 : Ref sig .tc := ⟨.hbm, 120, rfl⟩
abbrev main_call13_v3 : Ref sig .tc := ⟨.hbm, 121, rfl⟩
abbrev main_call13_v4 : Ref sig .tc := ⟨.hbm, 122, rfl⟩
abbrev main_v80 : Ref sig .tc := ⟨.hbm, 123, rfl⟩

abbrev nD : Nat := 1
abbrev τ : Topo := Topo.v7x

variable {F : FTy → Type} [FloatOps F]

class Facts₀ : Prop where
  pads_S224x512x512_S224x512x513_000_000_100 : S224x512x512.Pads (![0, 0, 1] : Fin 3 → Nat) ![0, 0, 0] ![0, 0, 0] S224x512x513
  h_S_ : 0 < S_.numel
  slices_S224x512x513_S224x512x512_0_0_0 : S224x512x513.Slices ![0, 0, 0] S224x512x512
  pads_S224x512x512_S224x513x512_000_100_000 : S224x512x512.Pads (![0, 1, 0] : Fin 3 → Nat) ![0, 0, 0] ![0, 0, 0] S224x513x512
  slices_S224x513x512_S224x512x512_0_0_0 : S224x513x512.Slices ![0, 0, 0] S224x512x512
  pads_S224x512x512_S224x513x513_000_100_100 : S224x512x512.Pads (![0, 1, 1] : Fin 3 → Nat) ![0, 0, 0] ![0, 0, 0] S224x513x513
  slices_S224x513x513_S224x512x512_0_0_0 : S224x513x513.Slices ![0, 0, 0] S224x512x512
  pads_S224x512x512_S224x513x513_000_100_010 : S224x512x512.Pads (![0, 1, 0] : Fin 3 → Nat) ![0, 0, 1] ![0, 0, 0] S224x513x513
  slices_S224x513x513_S224x512x512_0_0_1 : S224x513x513.Slices ![0, 0, 1] S224x512x512
  bcast_S512_S1x512x1_1 : S512.BroadcastsInDim S1x512x1 (![1] : Fin 1 → Fin S1x512x1.rank)
  bcast_S512_S1x1x512_2 : S512.BroadcastsInDim S1x1x512 (![2] : Fin 1 → Fin S1x1x512.rank)
  bcast_S_S1x512x1 : S_.BroadcastsInDim S1x512x1 (![] : Fin 0 → Fin S1x512x1.rank)
  bcast_S_S1x1x512 : S_.BroadcastsInDim S1x1x512 (![] : Fin 0 → Fin S1x1x512.rank)
  bcast_S1x512x1_S1x512x512_0_1_2 : S1x512x1.BroadcastsInDim S1x512x512 (![0, 1, 2] : Fin 3 → Fin S1x512x512.rank)
  bcast_S1x1x512_S1x512x512_0_1_2 : S1x1x512.BroadcastsInDim S1x512x512 (![0, 1, 2] : Fin 3 → Fin S1x512x512.rank)
  bcast_S_S224x512x512 : S_.BroadcastsInDim S224x512x512 (![] : Fin 0 → Fin S224x512x512.rank)
  bcast_S1x512x512_S224x512x512_0_1_2 : S1x512x512.BroadcastsInDim S224x512x512 (![0, 1, 2] : Fin 3 → Fin S224x512x512.rank)
  bcast_S_S1x512x512 : S_.BroadcastsInDim S1x512x512 (![] : Fin 0 → Fin S1x512x512.rank)
  slices_S224x512x512_S223x512x512_0_0_0 : S224x512x512.Slices ![0, 0, 0] S223x512x512
  concatenates_S1x512x512_S223x512x512_S224x512x512_d0 : Shape.Concatenates [S1x512x512, S223x512x512] S224x512x512 0
  bcast_S224_S224x1x1_0 : S224.BroadcastsInDim S224x1x1 (![0] : Fin 1 → Fin S224x1x1.rank)
  bcast_S_S224x1x1 : S_.BroadcastsInDim S224x1x1 (![] : Fin 0 → Fin S224x1x1.rank)
  bcast_S224x1x1_S224x512x512_0_1_2 : S224x1x1.BroadcastsInDim S224x512x512 (![0, 1, 2] : Fin 3 → Fin S224x512x512.rank)

variable [Facts₀]

class Facts : Prop extends Facts₀ where

variable [Facts]
-- ==== Proof.Spec.lean ====
/-
  What the compressor's prediction stage computes for one spectral band, stated once for both programs.

  A band is a 512 × 512 grid of extended reals. Every sample is predicted from four causal neighbours in its own
  band — west, north-west, north, north-east — and from the co-located sample of the previous band. The neighbour
  coordinates below are CYCLIC (row 0's "north" is row 511, column 511's "east" is column 0): each such wrapped
  neighbour only ever appears in an arm that the edge conditions do not select, so a program that reads zeros
  there (zero padding) and one that reads the wrapped sample (a rotation) compute the same function.

    local sum    σ = 0                      at the origin (row 0, column 0)
                   = (W + NW) + 2·N          in the last column below row 0
                   = 2·(N + NE)             in the first column below row 0
                   = 4·W                    in row 0 right of the origin
                   = ((W + NW) + N) + NE    elsewhere
    prediction   p = previous band's sample (0 in band 0)        at the origin
                   = σ/4 in band 0,  (σ/4 + previous)/2 after it  elsewhere
    residual     r = sample − p
    mapped index   = 2q if q ≥ 0 else −2q − 1,  q = r rounded half-to-even, as a 32-bit integer (wrapping arithmetic)
    reconstruction = (p + r) clamped to [−32768, 32767]

  The float constants stay the binary words both programs print (the same word on both sides is never evaluated).
-/
import Idealize.ShloMosaic.PureOps.Ideal
import Idealize.ShloMosaic.Lib.ValueIdx

noncomputable section

namespace Cert.Stencil

open Idealize.ShloMosaic Idealize.ShloMosaic.ValueIdx

/-- One spectral band: row `y`, column `x`. -/
abbrev Band := Fin 512 → Fin 512 → EReal

/-- The cyclic predecessor of a coordinate on an axis of extent 512. -/
def prv (k : Fin 512) : Fin 512 := ⟨(k.val + 511) % 512, Nat.mod_lt _ (by decide)⟩
/-- The cyclic successor of a coordinate on an axis of extent 512. -/
def nxt (k : Fin 512) : Fin 512 := ⟨(k.val + 1) % 512, Nat.mod_lt _ (by decide)⟩

/-- 0, 2, 4, 1/4, 1/2, −32768 and 32767 as the f32 words the programs print. -/
def c0 : EReal := Ideal.ofBits .f32 0x00000000#32
def c2 : EReal := Ideal.ofBits .f32 0x40000000#32
def c4 : EReal := Ideal.ofBits .f32 0x40800000#32
def cq : EReal := Ideal.ofBits .f32 0x3E800000#32
def ch : EReal := Ideal.ofBits .f32 0x3F000000#32
def clo : EReal := Ideal.ofBits .f32 0xC7000000#32
def chi : EReal := Ideal.ofBits .f32 0x46FFFE00#32

/-- The neighbour-oriented local sum of band `cur` at row `y`, column `x`. -/
def sigmaAt (cur : Band) (y x : Fin 512) : EReal :=
  if y.val = 0 ∧ x.val = 0 then c0
  else if ¬ y.val = 0 ∧ x.val = 511 then (cur y (prv x) + cur (prv y) (prv x)) + c2 * cur (prv y) x
  else if ¬ y.val = 0 ∧ x.val = 0 then c2 * (cur (prv y) x + cur (prv y) (nxt x))
  else if y.val = 0 ∧ ¬ x.val = 0 then c4 * cur y (prv x)
  else ((cur y (prv x) + cur (prv y) (prv x)) + cur (prv y) x) + cur (prv y) (nxt x)

/-- The predicted sample: `first` says the band is band 0 (no previous band). -/
def predAt (cur prev : Band) (first : Prop) [Decidable first] (y x : Fin 512) : EReal :=
  if y.val = 0 ∧ x.val = 0 then (if first then c0 else prev y x)
  else (if first then sigmaAt cur y x * cq else ch * (sigmaAt cur y x * cq + prev y x))

/-- The prediction residual. -/
def residAt (cur prev : Band) (first : Prop) [Decidable first] (y x : Fin 512) : EReal :=
  cur y x - predAt cur prev first y x

/-- The signed-to-unsigned ("zigzag") index of a 32-bit integer, in wrapping arithmetic. -/
def zigzag (q : BitVec 32) : BitVec 32 :=
  Scalar.select (IntOp.cmpi .sge q 0#32) (IntOp.muli 2#32 q) (IntOp.subi (IntOp.muli 4294967294#32 q) 1#32)

/-- The residual rounded half-to-even, converted to a 32-bit integer, mapped to its unsigned index. -/
def mappedAt (cur prev : Band) (first : Prop) [Decidable first] (y x : Fin 512) : BitVec 32 :=
  zigzag (Ideal.fptosi 32 (Ideal.liftRound Ideal.roundHalfEven (residAt cur prev first y x)))

/-- The reconstructed sample: prediction plus residual, clamped to the 16-bit signed range. -/
def reconAt (cur prev : Band) (first : Prop) [Decidable first] (y x : Fin 512) : EReal :=
  min chi (max clo (predAt cur prev first y x + residAt cur prev first y x))

/-! ## The whole image -/

/-- The image: 224 bands of 512 × 512 samples. -/
abbrev SImg : Shape := ⟨3, ![224, 512, 512]⟩

/-- Band `z` of an image. -/
def band (img : SImg.Idx → EReal) (z : Fin 224) : Band := fun y x => img (ix3 z y x)

/-- The band before `z` (band 0 for `z = 0`, where it is never used). -/
def pz (z : Fin 224) : Fin 224 := ⟨z.val - 1, by omega⟩

def pred (img : SImg.Idx → EReal) : SImg.Idx → EReal :=
  fun i => predAt (band img (i 0)) (band img (pz (i 0))) ((i 0).val = 0) (i 1) (i 2)
def resid (img : SImg.Idx → EReal) : SImg.Idx → EReal :=
  fun i => residAt (band img (i 0)) (band img (pz (i 0))) ((i 0).val = 0) (i 1) (i 2)
def mapped (img : SImg.Idx → EReal) : SImg.Idx → BitVec 32 :=
  fun i => mappedAt (band img (i 0)) (band img (pz (i 0))) ((i 0).val = 0) (i 1) (i 2)
def recon (img : SImg.Idx → EReal) : SImg.Idx → EReal :=
  fun i => reconAt (band img (i 0)) (band img (pz (i 0))) ((i 0).val = 0) (i 1) (i 2)

end Cert.Stencil

end
-- ==== Proof.KFrame.lean ====
/-
  The run of the kernel's one region as printed (at any float instance; cited at the word-level one), read off the
  pipeline library's launch theorem for a kernel whose input windows share an array. The idealized
  program prints the same operations, so its run is this one read at the ideal instance.

  The region walks the 224 bands. At band `t` it stages two blocks of the SAME image array — the band itself
  (window 0) and the band before it (window 1; band 0 again at `t = 0`) — and four output blocks, one per result
  array (windows 2–5: predictions, residuals, mapped indices, reconstructions), each written back after the body.
  The body loads the two input blocks whole, computes, and stores each output block whole: what it leaves in an
  output's buffer is one function of the two input blocks and the band number (`left2` … `left5`), and it leaves
  the input buffers as it found them.

  Because both input windows read one array, the array's points-to is dealt between them by halves of the full share
  (`arrays_at_entry`); an input is only ever read, so half a share each suffices, and the four result arrays are
  held whole. The run ends with every array at what the library computes from these data (`Dat.arrAt`): the image
  unchanged, each result array overwritten block by block.
-/
import proofs.«114094_j2216203124849_2_alg».proof.Proof.Gen.Kernel.Launch
import proofs.«114094_j2216203124849_2_alg».proof.Proof.Gen.Kernel.Skeleton
import proofs.«114094_j2216203124849_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers as the region finds them: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The input blocks -/

/-- Window `w`'s block at band `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every band, fetched there or not: window 1 is not fetched at band 1,
    where its block index is band 0's again, and the block left from band 0 is the one wanted. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output's buffer -/

/-- The one rectangle every access of the body goes through: the whole (1, 512, 512) block. -/
abbrev whole : Rect S1x512x512 := Rect.unit (s := S1x512x512) ![0, 0, 0] S1x512x512.size inb_S1x512x512_S1x512x512_0_0_0

/-- The quarter the local sum is scaled by, as the body prints it. -/
abbrev quarter : F .f32 := Scalar.ofBits .f32 0x3E800000#32

/-- The four stores, each of a whole block, as functions of the band number `a0` and the two input blocks
    (`x0` the band's, `x1` the previous band's). -/
def left2 (a0 : BitVec 32) (x0 x1 : Vec F S1x512x512 .f32) : Vec F S1x512x512 .f32 :=
  View.canon [⟨whole, k0_pay1 a0 (View.ld x1 whole) k0_pay5 k0_pay6 (k0_pay7 (View.ld x0 whole)) quarter⟩]
def left3 (a0 : BitVec 32) (x0 x1 : Vec F S1x512x512 .f32) : Vec F S1x512x512 .f32 :=
  View.canon [⟨whole, k0_pay2 a0 (View.ld x0 whole) (View.ld x1 whole) k0_pay5 k0_pay6 (k0_pay7 (View.ld x0 whole)) quarter⟩]
def left4 (a0 : BitVec 32) (x0 x1 : Vec F S1x512x512 .f32) : Vec F S1x512x512 .i32 :=
  View.canon [⟨whole, k0_pay3 a0 (View.ld x0 whole) (View.ld x1 whole) k0_pay5 k0_pay6 (k0_pay7 (View.ld x0 whole)) quarter⟩]
def left5 (a0 : BitVec 32) (x0 x1 : Vec F S1x512x512 .f32) : Vec F S1x512x512 .f32 :=
  View.canon [⟨whole, k0_pay4 a0 (View.ld x0 whole) (View.ld x1 whole) k0_pay5 k0_pay6 (k0_pay7 (View.ld x0 whole)) quarter⟩]

/-- One store through the whole block covers the block. -/
theorem zeros : (![0, 0, 0] : Fin 3 → Nat) = fun _ => 0 := funext fun a => by fin_cases a <;> rfl

theorem covers {e : EltTy} (p0 : Vec F S1x512x512 e) (y : S1x512x512.Idx) :
    ∃ pc ∈ ([⟨whole, p0⟩] : List (View.Piece (Elt F) S1x512x512 e)), y ∈ pc.1.set :=
  ⟨_, List.mem_singleton_self _, View.mem_set_unit_zero zeros inb_S1x512x512_S1x512x512_0_0_0 y⟩

/-! ## The body's triple -/

set_option maxHeartbeats 4000000 in
/-- The body at grid coordinates `i`, on whole staging memrefs — the inputs' reading `x0`, `x1`, the outputs' at
    anything —, runs to its end holding the inputs' as they were and each output's at `leftW` of the inputs. -/
theorem sound_kernel (c : Dev nD) (E : Set ℕ) (i : grid0.Coords)
    (arg1 : Memref sig .tc .vmem S1x512x512 .f32) (harg1 : arg1.IsWhole) (arg2 : Memref sig .tc .vmem S1x512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .i32) (harg5 : arg5.IsWhole) (arg6 : Memref sig .tc .vmem S1x512x512 .f32) (harg6 : arg6.IsWhole)
    (x0 x1 : Vec F S1x512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (left2 (BitVec.ofNat 32 (i 0).val) x0 x1)
            ∗ owns (c : Thread nD τ) arg4 fullShare (left3 (BitVec.ofNat 32 (i 0).val) x0 x1)
            ∗ owns (c : Thread nD τ) arg5 fullShare (left4 (BitVec.ofNat 32 (i 0).val) x0 x1)
            ∗ owns (c : Thread nD τ) arg6 fullShare (left5 (BitVec.ofNat 32 (i 0).val) x0 x1)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers _)
  isplitl [H4]
  · iexists _; isplitr
    swap; · iexact H4
    ipureintro
    exact View.read_writes_eq_canon _ _ _ (covers _)
  isplitl [H5]
  · iexists _; isplitr
    swap; · iexact H5
    ipureintro
    exact View.read_writes_eq_canon _ _ _ (covers _)
  iexists _; isplitr
  swap; · iexact H6
  ipureintro
  exact View.read_writes_eq_canon _ _ _ (covers _)

/-! ## The proof data -/

/-- The band number the body is handed at grid point `t`. -/
abbrev bandNo (t : Fin cfg0.N) : BitVec 32 := BitVec.ofNat 32 ((grid0.coords t) 0).val

/-- What the region's scoped buffers other than the staging buffers hold: there is none, and the body uses none. -/
abbrev Inv (c : Dev nD) : sProp 𝕄 :=
  Pipeline.scopedRest (Ix := Unit) (Name := ℕ) (U := UR sig nD τ) (Lvl := ℕ) (Val := Elt F) spec0 c

/-- The data of the one pipeline on core `c`: the arrays as the region finds them; after the body at band `t` each
    input's buffer at its block and each output's at `leftW` of the two input blocks; nothing carried between bands;
    nothing owed; the image array's share dealt to its two windows by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left2 (bandNo t) (iblk m c 0 t) (iblk m c 1 t)
    | ⟨3, _⟩ => left3 (bandNo t) (iblk m c 0 t) (iblk m c 1 t)
    | ⟨4, _⟩ => left4 (bandNo t) (iblk m c 0 t) (iblk m c 1 t)
    | ⟨5, _⟩ => left5 (bandNo t) (iblk m c 0 t) (iblk m c 1 t)
  Φ _ := Inv c
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = left2 (bandNo t) (iblk m c 0 t) (iblk m c 1 t) := by dsimp only [dats]
theorem after3 (c : Dev nD) (t : Fin cfg0.N) : (dats m 0 c).after 3 t = left3 (bandNo t) (iblk m c 0 t) (iblk m c 1 t) := by dsimp only [dats]
theorem after4 (c : Dev nD) (t : Fin cfg0.N) : (dats m 0 c).after 4 t = left4 (bandNo t) (iblk m c 0 t) (iblk m c 1 t) := by dsimp only [dats]
theorem after5 (c : Dev nD) (t : Fin cfg0.N) : (dats m 0 c).after 5 t = left5 (bandNo t) (iblk m c 0 t) (iblk m c 1 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d

/-! ## The body obligation -/

/-- What the body is called with at band `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The arrays at entry: the image's share dealt to its two windows -/

/-- The five distinct buffers behind the six windows' arrays, each whole at the full share, are the six windows'
    arrays at the shares of the data: the image's points-to is split into its two halves, one per input window. -/
theorem arrays_at_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hR : (dats m 0 c).arrays ((dats m 0 c).arrAt · 0)
      = bigSep Finset.univ fun w : Fin cfg0.W =>
          (((c.tc : Thread nD τ).loc (Pipeline.arrRef spec0 w)) ↦{(dats m 0 c).share w} (dats m 0 c).A w : sProp 𝕄) := by
    unfold Dat.arrays
    exact bigSep_congr fun w _ => by rw [(arr_whole0 w).set_eq_univ]; rfl
  rw [hR, bigSep_W0]
  unfold Pipeline.arrBufs
  have hL : (bigSep (Finset.univ.image (Pipeline.arrRef spec0)) fun b : Ref sig .tc => (((c.tc : Thread nD τ).loc b) ↦{fullShare} V m c b : sProp 𝕄))
      = iprop((((c.tc : Thread nD τ).loc main_arg0) ↦{fullShare} V m c main_arg0)
        ∗ (((c.tc : Thread nD τ).loc main_v0_0) ↦{fullShare} V m c main_v0_0)
        ∗ (((c.tc : Thread nD τ).loc main_v0_1) ↦{fullShare} V m c main_v0_1)
        ∗ (((c.tc : Thread nD τ).loc main_v0_2) ↦{fullShare} V m c main_v0_2)
        ∗ (((c.tc : Thread nD τ).loc main_v0_3) ↦{fullShare} V m c main_v0_3)) :=
    bigSep_eq_bigSepL_of_eq [main_arg0, main_v0_0, main_v0_1, main_v0_2, main_v0_3] (by decide) (by decide) _
  rw [hL]
  show _ ⊢ iprop((((c.tc : Thread nD τ).loc main_arg0) ↦{fullShare.left} V m c main_arg0)
      ∗ (((c.tc : Thread nD τ).loc main_arg0) ↦{fullShare.right} V m c main_arg0)
      ∗ (((c.tc : Thread nD τ).loc main_v0_0) ↦{fullShare} V m c main_v0_0)
      ∗ (((c.tc : Thread nD τ).loc main_v0_1) ↦{fullShare} V m c main_v0_1)
      ∗ (((c.tc : Thread nD τ).loc main_v0_2) ↦{fullShare} V m c main_v0_2)
      ∗ (((c.tc : Thread nD τ).loc main_v0_3) ↦{fullShare} V m c main_v0_3))
  iintro ⟨H0, H1, H2, H3, H4⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  isplitl [H2]; · iexact H2
  isplitl [H3]; · iexact H3
  iexact H4

/-! ## The run -/

set_option backward.isDefEq.respectTransparency.types false in
/-- From any memory with zero counters, every weakly fair execution of the program on the TensorCores terminates, nothing
    faulting, and every final state has each window's array at what the library computes from the data above: an input's
    its entry contents, an output's those overwritten, band by band, by what the body left. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show _ ⊢ Inv c
      iintro ⟨-, H⟩; iexact H)
    (hout := fun c => by
      show Inv c ⊢ _
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- The frame: the program runs to its end, faults nowhere, and leaves the image array as it found it (an input window's
    array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.Kernel.Region

end
-- ==== Proof.KIFrame.lean ====
/-
  The run of the idealized kernel's one region, read off the pipeline library's launch theorem for a kernel whose
  input windows share an array.

  The region walks the 224 bands. At band `t` it stages two blocks of the SAME image array — the band itself
  (window 0) and the band before it (window 1; band 0 again at `t = 0`) — and four output blocks, one per result
  array (windows 2–5: predictions, residuals, mapped indices, reconstructions), each written back after the body.
  The body loads the two input blocks whole, computes, and stores each output block whole: what it leaves in an
  output's buffer is one function of the two input blocks and the band number (`left2` … `left5`), and it leaves
  the input buffers as it found them.

  Because both input windows read one array, the array's points-to is dealt between them by halves of the full share
  (`arrays_at_entry`); an input is only ever read, so half a share each suffices, and the four result arrays are
  held whole. The run ends with every array at what the library computes from these data (`Dat.arrAt`): the image
  unchanged, each result array overwritten block by block.
-/
import proofs.«114094_j2216203124849_2_alg».proof.Proof.Gen.KernelIdeal.Launch
import proofs.«114094_j2216203124849_2_alg».proof.Proof.Gen.KernelIdeal.Skeleton
import proofs.«114094_j2216203124849_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers as the region finds them: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The input blocks -/

/-- Window `w`'s block at band `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every band, fetched there or not: window 1 is not fetched at band 1,
    where its block index is band 0's again, and the block left from band 0 is the one wanted. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output's buffer -/

/-- The one rectangle every access of the body goes through: the whole (1, 512, 512) block. -/
abbrev whole : Rect S1x512x512 := Rect.unit (s := S1x512x512) ![0, 0, 0] S1x512x512.size inb_S1x512x512_S1x512x512_0_0_0

/-- The quarter the local sum is scaled by, as the body prints it. -/
abbrev quarter : F .f32 := Scalar.ofBits .f32 0x3E800000#32

/-- The four stores, each of a whole block, as functions of the band number `a0` and the two input blocks
    (`x0` the band's, `x1` the previous band's). -/
def left2 (a0 : BitVec 32) (x0 x1 : Vec F S1x512x512 .f32) : Vec F S1x512x512 .f32 :=
  View.canon [⟨whole, k0_pay1 a0 (View.ld x1 whole) k0_pay5 k0_pay6 (k0_pay7 (View.ld x0 whole)) quarter⟩]
def left3 (a0 : BitVec 32) (x0 x1 : Vec F S1x512x512 .f32) : Vec F S1x512x512 .f32 :=
  View.canon [⟨whole, k0_pay2 a0 (View.ld x0 whole) (View.ld x1 whole) k0_pay5 k0_pay6 (k0_pay7 (View.ld x0 whole)) quarter⟩]
def left4 (a0 : BitVec 32) (x0 x1 : Vec F S1x512x512 .f32) : Vec F S1x512x512 .i32 :=
  View.canon [⟨whole, k0_pay3 a0 (View.ld x0 whole) (View.ld x1 whole) k0_pay5 k0_pay6 (k0_pay7 (View.ld x0 whole)) quarter⟩]
def left5 (a0 : BitVec 32) (x0 x1 : Vec F S1x512x512 .f32) : Vec F S1x512x512 .f32 :=
  View.canon [⟨whole, k0_pay4 a0 (View.ld x0 whole) (View.ld x1 whole) k0_pay5 k0_pay6 (k0_pay7 (View.ld x0 whole)) quarter⟩]

/-- One store through the whole block covers the block. -/
theorem zeros : (![0, 0, 0] : Fin 3 → Nat) = fun _ => 0 := funext fun a => by fin_cases a <;> rfl

theorem covers {e : EltTy} (p0 : Vec F S1x512x512 e) (y : S1x512x512.Idx) :
    ∃ pc ∈ ([⟨whole, p0⟩] : List (View.Piece (Elt F) S1x512x512 e)), y ∈ pc.1.set :=
  ⟨_, List.mem_singleton_self _, View.mem_set_unit_zero zeros inb_S1x512x512_S1x512x512_0_0_0 y⟩

/-! ## The body's triple -/

set_option maxHeartbeats 4000000 in
/-- The body at grid coordinates `i`, on whole staging memrefs — the inputs' reading `x0`, `x1`, the outputs' at
    anything —, runs to its end holding the inputs' as they were and each output's at `leftW` of the inputs. -/
theorem sound_kernel (c : Dev nD) (E : Set ℕ) (i : grid0.Coords)
    (arg1 : Memref sig .tc .vmem S1x512x512 .f32) (harg1 : arg1.IsWhole) (arg2 : Memref sig .tc .vmem S1x512x512 .f32) (harg2 : arg2.IsWhole)
    (arg3 : Memref sig .tc .vmem S1x512x512 .f32) (harg3 : arg3.IsWhole) (arg4 : Memref sig .tc .vmem S1x512x512 .f32) (harg4 : arg4.IsWhole)
    (arg5 : Memref sig .tc .vmem S1x512x512 .i32) (harg5 : arg5.IsWhole) (arg6 : Memref sig .tc .vmem S1x512x512 .f32) (harg6 : arg6.IsWhole)
    (x0 x1 : Vec F S1x512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (left2 (BitVec.ofNat 32 (i 0).val) x0 x1)
            ∗ owns (c : Thread nD τ) arg4 fullShare (left3 (BitVec.ofNat 32 (i 0).val) x0 x1)
            ∗ owns (c : Thread nD τ) arg5 fullShare (left4 (BitVec.ofNat 32 (i 0).val) x0 x1)
            ∗ owns (c : Thread nD τ) arg6 fullShare (left5 (BitVec.ofNat 32 (i 0).val) x0 x1)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (covers _)
  isplitl [H4]
  · iexists _; isplitr
    swap; · iexact H4
    ipureintro
    exact View.read_writes_eq_canon _ _ _ (covers _)
  isplitl [H5]
  · iexists _; isplitr
    swap; · iexact H5
    ipureintro
    exact View.read_writes_eq_canon _ _ _ (covers _)
  iexists _; isplitr
  swap; · iexact H6
  ipureintro
  exact View.read_writes_eq_canon _ _ _ (covers _)

/-! ## The proof data -/

/-- The band number the body is handed at grid point `t`. -/
abbrev bandNo (t : Fin cfg0.N) : BitVec 32 := BitVec.ofNat 32 ((grid0.coords t) 0).val

/-- What the region's scoped buffers other than the staging buffers hold: there is none, and the body uses none. -/
abbrev Inv (c : Dev nD) : sProp 𝕄 :=
  Pipeline.scopedRest (Ix := Unit) (Name := ℕ) (U := UR sig nD τ) (Lvl := ℕ) (Val := Elt F) spec0 c

/-- The data of the one pipeline on core `c`: the arrays as the region finds them; after the body at band `t` each
    input's buffer at its block and each output's at `leftW` of the two input blocks; nothing carried between bands;
    nothing owed; the image array's share dealt to its two windows by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left2 (bandNo t) (iblk m c 0 t) (iblk m c 1 t)
    | ⟨3, _⟩ => left3 (bandNo t) (iblk m c 0 t) (iblk m c 1 t)
    | ⟨4, _⟩ => left4 (bandNo t) (iblk m c 0 t) (iblk m c 1 t)
    | ⟨5, _⟩ => left5 (bandNo t) (iblk m c 0 t) (iblk m c 1 t)
  Φ _ := Inv c
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = left2 (bandNo t) (iblk m c 0 t) (iblk m c 1 t) := by dsimp only [dats]
theorem after3 (c : Dev nD) (t : Fin cfg0.N) : (dats m 0 c).after 3 t = left3 (bandNo t) (iblk m c 0 t) (iblk m c 1 t) := by dsimp only [dats]
theorem after4 (c : Dev nD) (t : Fin cfg0.N) : (dats m 0 c).after 4 t = left4 (bandNo t) (iblk m c 0 t) (iblk m c 1 t) := by dsimp only [dats]
theorem after5 (c : Dev nD) (t : Fin cfg0.N) : (dats m 0 c).after 5 t = left5 (bandNo t) (iblk m c 0 t) (iblk m c 1 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d

/-! ## The body obligation -/

/-- What the body is called with at band `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The arrays at entry: the image's share dealt to its two windows -/

/-- The five distinct buffers behind the six windows' arrays, each whole at the full share, are the six windows'
    arrays at the shares of the data: the image's points-to is split into its two halves, one per input window. -/
theorem arrays_at_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hR : (dats m 0 c).arrays ((dats m 0 c).arrAt · 0)
      = bigSep Finset.univ fun w : Fin cfg0.W =>
          (((c.tc : Thread nD τ).loc (Pipeline.arrRef spec0 w)) ↦{(dats m 0 c).share w} (dats m 0 c).A w : sProp 𝕄) := by
    unfold Dat.arrays
    exact bigSep_congr fun w _ => by rw [(arr_whole0 w).set_eq_univ]; rfl
  rw [hR, bigSep_W0]
  unfold Pipeline.arrBufs
  have hL : (bigSep (Finset.univ.image (Pipeline.arrRef spec0)) fun b : Ref sig .tc => (((c.tc : Thread nD τ).loc b) ↦{fullShare} V m c b : sProp 𝕄))
      = iprop((((c.tc : Thread nD τ).loc main_arg0) ↦{fullShare} V m c main_arg0)
        ∗ (((c.tc : Thread nD τ).loc main_v0_0) ↦{fullShare} V m c main_v0_0)
        ∗ (((c.tc : Thread nD τ).loc main_v0_1) ↦{fullShare} V m c main_v0_1)
        ∗ (((c.tc : Thread nD τ).loc main_v0_2) ↦{fullShare} V m c main_v0_2)
        ∗ (((c.tc : Thread nD τ).loc main_v0_3) ↦{fullShare} V m c main_v0_3)) :=
    bigSep_eq_bigSepL_of_eq [main_arg0, main_v0_0, main_v0_1, main_v0_2, main_v0_3] (by decide) (by decide) _
  rw [hL]
  show _ ⊢ iprop((((c.tc : Thread nD τ).loc main_arg0) ↦{fullShare.left} V m c main_arg0)
      ∗ (((c.tc : Thread nD τ).loc main_arg0) ↦{fullShare.right} V m c main_arg0)
      ∗ (((c.tc : Thread nD τ).loc main_v0_0) ↦{fullShare} V m c main_v0_0)
      ∗ (((c.tc : Thread nD τ).loc main_v0_1) ↦{fullShare} V m c main_v0_1)
      ∗ (((c.tc : Thread nD τ).loc main_v0_2) ↦{fullShare} V m c main_v0_2)
      ∗ (((c.tc : Thread nD τ).loc main_v0_3) ↦{fullShare} V m c main_v0_3))
  iintro ⟨H0, H1, H2, H3, H4⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  isplitl [H2]; · iexact H2
  isplitl [H3]; · iexact H3
  iexact H4

/-! ## The run -/

set_option backward.isDefEq.respectTransparency.types false in
/-- From any memory with zero counters, every weakly fair execution of the program on the TensorCores terminates, nothing
    faulting, and every final state has each window's array at what the library computes from the data above: an input's
    its entry contents, an output's those overwritten, band by band, by what the body left. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show _ ⊢ Inv c
      iintro ⟨-, H⟩; iexact H)
    (hout := fun c => by
      show Inv c ⊢ _
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-- The frame: the program runs to its end, faults nowhere, and leaves the image array as it found it (an input window's
    array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.KernelIdeal.Region

end
-- ==== Proof.PaySpec.lean ====
/-
  The kernel body's four stored values, read at one entry of the (1, 512, 512) block, are the per-band functions
  of the specification.

  The body forms the four causal neighbours of the current band by cyclic rotations: by 1 along the columns
  (west), by 1 along the rows (north), north then by 1 along the columns (north-west), north then by 511 along
  the columns (north-east). A rotation by s along an axis of extent 512 reads, at coordinate k, the operand at
  (k + 512 − s) mod 512; for s = 1 that is the cyclic predecessor (k + 511) mod 512 and for s = 511 the cyclic
  successor (k + 1) mod 512. The edge masks compare a coordinate, written as a 32-bit word, with 0 or 511; a
  coordinate is below 512, so the words are equal exactly when the numbers are. With the masks read as the
  propositions "row 0", "column 0", "column 511", the chain of choices of the body and the nested conditions of
  the specification are resolved case by case, and in every case the two sides are the same expression.
-/
import proofs.«114094_j2216203124849_2_alg».proof.Proof.Gen.KernelIdeal.Skeleton
import proofs.«114094_j2216203124849_2_alg».proof.Proof.Spec
import Idealize.ShloMosaic.Lib.ValueIdx
import Idealize.ShloMosaic.Lib.KernelVsHost
import Idealize.ShloMosaic.Lib.Pipeline.Value
import Idealize.ShloMosaic.PureOps.Ideal

noncomputable section

namespace Cert.PaySpec

open Cert.KernelIdeal Cert.KernelIdeal.Gen Cert.Stencil Idealize.ShloMosaic Idealize.ShloMosaic.ValueIdx

/-- A (1,512,512) block read as a band. -/
def bandOf (v : Vec Ideal S1x512x512 .f32) : Cert.Stencil.Band := fun y x => v (ix3 (0 : Fin 1) y x)

/-! ## Rotations read at an index -/

theorem rotW (v : FVec Ideal S1x512x512 .f32) (y x : Fin 512) :
    dynamicRotate 2 1#32 none v rotates_S1x512x512_d2 (ix3 (0 : Fin 1) y x) = v (ix3 (0 : Fin 1) y (prv x)) := by
  refine dynamicRotate_apply (2 : Fin 3) 1#32 v rotates_S1x512x512_d2 _ (ix3 (0 : Fin 1) y (prv x)) ?_
  intro b
  match b with
  | ⟨0, _⟩ => rfl
  | ⟨1, _⟩ => rfl
  | ⟨2, _⟩ =>
    show (x.val + 511) % 512 = (x.val + 512 - 1 % 512) % 512
    have := x.isLt
    omega

theorem rotN (v : FVec Ideal S1x512x512 .f32) (y x : Fin 512) :
    dynamicRotate 1 1#32 none v rotates_S1x512x512_d1 (ix3 (0 : Fin 1) y x) = v (ix3 (0 : Fin 1) (prv y) x) := by
  refine dynamicRotate_apply (1 : Fin 3) 1#32 v rotates_S1x512x512_d1 _ (ix3 (0 : Fin 1) (prv y) x) ?_
  intro b
  match b with
  | ⟨0, _⟩ => rfl
  | ⟨1, _⟩ =>
    show (y.val + 511) % 512 = (y.val + 512 - 1 % 512) % 512
    have := y.isLt
    omega
  | ⟨2, _⟩ => rfl

theorem rotE (v : FVec Ideal S1x512x512 .f32) (y x : Fin 512) :
    dynamicRotate 2 511#32 none v rotates_S1x512x512_d2 (ix3 (0 : Fin 1) y x) = v (ix3 (0 : Fin 1) y (nxt x)) := by
  refine dynamicRotate_apply (2 : Fin 3) 511#32 v rotates_S1x512x512_d2 _ (ix3 (0 : Fin 1) y (nxt x)) ?_
  intro b
  match b with
  | ⟨0, _⟩ => rfl
  | ⟨1, _⟩ => rfl
  | ⟨2, _⟩ =>
    show (x.val + 1) % 512 = (x.val + 512 - 511 % 512) % 512
    have := x.isLt
    omega

/-! ## Coordinate masks read at an index -/

/-- A coordinate below 512, as a 32-bit word, is the word `c` exactly when it is the number `c`. -/
theorem ofNat_eq_iff (k : Fin 512) (c : Nat) (hc : c < 512) :
    (BitVec.ofNat 32 k.val == BitVec.ofNat 32 c) = decide (k.val = c) := by
  have hk := k.isLt
  by_cases h : k.val = c
  · simp [h]
  · have hne : BitVec.ofNat 32 k.val ≠ BitVec.ofNat 32 c := by
      intro e
      have e' := congrArg BitVec.toNat e
      simp only [BitVec.toNat_ofNat] at e'
      omega
    simp [h, hne]

theorem pay5_at (y x : Fin 512) :
    k0_pay5 (ix3 (0 : Fin 1) y x) = if y.val = 0 then 1#1 else 0#1 := by
  unfold k0_pay5
  show IntOp.cmpi .eq (iota .tc S1x512x512 32 [1] iota_S1x512x512_d1_w32 (ix3 (0 : Fin 1) y x)) 0#32 = _
  rw [iota_single_apply]
  show BitVec.ofBool (BitVec.ofNat 32 y.val == BitVec.ofNat 32 0) = _
  rw [ofNat_eq_iff y 0 (by decide)]
  by_cases h : y.val = 0 <;> simp [h]

theorem pay6_at (y x : Fin 512) :
    k0_pay6 (ix3 (0 : Fin 1) y x) = if x.val = 0 then 1#1 else 0#1 := by
  unfold k0_pay6
  show IntOp.cmpi .eq (iota .tc S1x512x512 32 [2] iota_S1x512x512_d2_w32 (ix3 (0 : Fin 1) y x)) 0#32 = _
  rw [iota_single_apply]
  show BitVec.ofBool (BitVec.ofNat 32 x.val == BitVec.ofNat 32 0) = _
  rw [ofNat_eq_iff x 0 (by decide)]
  by_cases h : x.val = 0 <;> simp [h]

theorem lastCol_at (y x : Fin 512) :
    cmpi .eq (iota .tc S1x512x512 32 [2] iota_S1x512x512_d2_w32) (broadcast S1x512x512 511#32) (ix3 (0 : Fin 1) y x)
      = if x.val = 511 then 1#1 else 0#1 := by
  show IntOp.cmpi .eq (iota .tc S1x512x512 32 [2] iota_S1x512x512_d2_w32 (ix3 (0 : Fin 1) y x)) 511#32 = _
  rw [iota_single_apply]
  show BitVec.ofBool (BitVec.ofNat 32 x.val == BitVec.ofNat 32 511) = _
  rw [ofNat_eq_iff x 511 (by decide)]
  by_cases h : x.val = 511 <;> simp [h]

/-! ## Bit operations on masks -/

theorem andi_at {s : Shape} (a b : IVec s 1) (i : s.Idx) : andi a b i = IntOp.andi (a i) (b i) := rfl
theorem xori_at {s : Shape} (a b : IVec s 1) (i : s.Idx) : xori a b i = IntOp.xori (a i) (b i) := rfl
theorem constantI_at {s : Shape} (w : Nat) (b : BitVec w) (i : s.Idx) : constantI s w b i = b := rfl

theorem andi_11 : IntOp.andi 1#1 1#1 = 1#1 := by decide
theorem andi_10 : IntOp.andi 1#1 0#1 = 0#1 := by decide
theorem andi_01 : IntOp.andi 0#1 1#1 = 0#1 := by decide
theorem andi_00 : IntOp.andi 0#1 0#1 = 0#1 := by decide
theorem xori_11 : IntOp.xori 1#1 1#1 = 0#1 := by decide
theorem xori_01 : IntOp.xori 0#1 1#1 = 1#1 := by decide

/-- A scalar choice between two whole vectors, read at an index, is the choice between their entries. -/
theorem scalarSelect_at {ι α : Type} (c : BitVec 1) (a b : ι → α) (i : ι) :
    (Scalar.select c a b) i = Scalar.select c (a i) (b i) := by
  unfold Scalar.select
  split <;> rfl

/-- The choice on the word comparison `a = 0` is the choice on the proposition. -/
theorem select_cmpi_eq_zero {α : Type} (a : BitVec 32) (p q : α) :
    Scalar.select (Scalar.cmpi .eq a 0#32) p q = if a = 0#32 then p else q := by
  show (if BitVec.ofBool (a == 0#32) = 1#1 then p else q) = _
  by_cases h : a = 0#32
  · subst h
    rw [if_pos rfl, if_pos (by decide)]
  · have hb : (a == 0#32) = false := beq_eq_false_iff_ne.mpr h
    rw [hb, if_neg h, if_neg (by decide)]

/-! ## The local sum -/

theorem rotNW (v : FVec Ideal S1x512x512 .f32) (y x : Fin 512) :
    dynamicRotate 2 1#32 none (dynamicRotate 1 1#32 none v rotates_S1x512x512_d1) rotates_S1x512x512_d2
      (ix3 (0 : Fin 1) y x) = v (ix3 (0 : Fin 1) (prv y) (prv x)) :=
  (rotW _ y x).trans (rotN v y (prv x))

theorem rotNE (v : FVec Ideal S1x512x512 .f32) (y x : Fin 512) :
    dynamicRotate 2 511#32 none (dynamicRotate 1 1#32 none v rotates_S1x512x512_d1) rotates_S1x512x512_d2
      (ix3 (0 : Fin 1) y x) = v (ix3 (0 : Fin 1) (prv y) (nxt x)) :=
  (rotE _ y x).trans (rotN v y (nxt x))

theorem pay7_at (v0 : Vec Ideal S1x512x512 .f32) (y x : Fin 512) :
    k0_pay7 (F := Ideal) v0 (ix3 (0 : Fin 1) y x) = sigmaAt (bandOf v0) y x := by
  unfold k0_pay7
  simp only [select_apply, addf_apply, mulf_apply, broadcast_apply, andi_at, xori_at, constantI_at,
    pay5_at, pay6_at]
  rw [rotNW v0 y x, rotNE v0 y x, rotW v0 y x, rotN v0 y x, lastCol_at y x]
  unfold sigmaAt bandOf
  rcases (by omega : (x.val = 0 ∧ ¬ x.val = 511) ∨ (¬ x.val = 0 ∧ x.val = 511) ∨ (¬ x.val = 0 ∧ ¬ x.val = 511))
    with ⟨h0, h1⟩ | ⟨h0, h1⟩ | ⟨h0, h1⟩ <;> by_cases hy : y.val = 0
  all_goals
    first | have e0 := eq_false h0 | have e0 := eq_true h0
    first | have e1 := eq_false h1 | have e1 := eq_true h1
    first | have ey := eq_false hy | have ey := eq_true hy
    simp only [e0, e1, ey, if_true, if_false, and_true, true_and, and_false, false_and, and_self,
      not_true_eq_false, not_false_eq_true,
      andi_11, andi_10, andi_01, andi_00, xori_11, xori_01, select_one, select_zero]
    first | done | rfl

/-! ## The four stored values -/

theorem pay1_at (a0 : BitVec 32) (v0 v1 : Vec Ideal S1x512x512 .f32) (y x : Fin 512) :
    k0_pay1 (F := Ideal) a0 v1 k0_pay5 k0_pay6 (k0_pay7 v0) (Scalar.ofBits .f32 0x3E800000#32) (ix3 (0 : Fin 1) y x)
      = predAt (bandOf v0) (bandOf v1) (a0 = 0#32) y x := by
  unfold k0_pay1
  simp only [select_apply, scalarSelect_at, select_cmpi_eq_zero, ite_apply, addf_apply, mulf_apply, broadcast_apply,
    andi_at, pay5_at, pay6_at, pay7_at]
  unfold predAt
  by_cases hy : y.val = 0 <;> by_cases hx : x.val = 0
  all_goals
    first | have ex := eq_false hx | have ex := eq_true hx
    first | have ey := eq_false hy | have ey := eq_true hy
    simp only [ex, ey, if_true, if_false, and_true, true_and, and_false, false_and, and_self,
      andi_11, andi_10, andi_01, andi_00, select_one, select_zero]
    first | done | rfl

theorem pay2_at (a0 : BitVec 32) (v0 v1 : Vec Ideal S1x512x512 .f32) (y x : Fin 512) :
    k0_pay2 (F := Ideal) a0 v0 v1 k0_pay5 k0_pay6 (k0_pay7 v0) (Scalar.ofBits .f32 0x3E800000#32) (ix3 (0 : Fin 1) y x)
      = residAt (bandOf v0) (bandOf v1) (a0 = 0#32) y x := by
  unfold k0_pay2
  simp only [subf_apply, pay1_at]
  first | done | rfl

theorem pay3_at (a0 : BitVec 32) (v0 v1 : Vec Ideal S1x512x512 .f32) (y x : Fin 512) :
    k0_pay3 (F := Ideal) a0 v0 v1 k0_pay5 k0_pay6 (k0_pay7 v0) (Scalar.ofBits .f32 0x3E800000#32) (ix3 (0 : Fin 1) y x)
      = mappedAt (bandOf v0) (bandOf v1) (a0 = 0#32) y x := by
  unfold k0_pay3
  show zigzag (Ideal.fptosi 32 (Ideal.liftRound Ideal.roundHalfEven
    (k0_pay2 (F := Ideal) a0 v0 v1 k0_pay5 k0_pay6 (k0_pay7 v0) (Scalar.ofBits .f32 0x3E800000#32) (ix3 (0 : Fin 1) y x)))) = _
  rw [pay2_at a0 v0 v1 y x]
  rfl

theorem pay4_at (a0 : BitVec 32) (v0 v1 : Vec Ideal S1x512x512 .f32) (y x : Fin 512) :
    k0_pay4 (F := Ideal) a0 v0 v1 k0_pay5 k0_pay6 (k0_pay7 v0) (Scalar.ofBits .f32 0x3E800000#32) (ix3 (0 : Fin 1) y x)
      = reconAt (bandOf v0) (bandOf v1) (a0 = 0#32) y x := by
  unfold k0_pay4
  simp only [minimumf_apply, maximumf_apply, addf_apply, broadcast_apply, pay1_at, pay2_at]
  first | done | rfl

end Cert.PaySpec

end
-- ==== Proof.KIValue.lean ====
/-
  The idealized kernel's four result arrays after the run, each as one function of the image.

  Band `t` of the run reads two blocks of the image — band `t` and band `t − 1` (band 0 at `t = 0`) — and writes back one
  block of each result array, at band `t`. The body's four stored values, read at row `y`, column `x` of the block, are
  the per-band specification of the two bands (the payload lemmas); block `t`'s element `(y, x)` sits at `(t, y, x)` of the
  array; and every element of a result array lies in the block of its own band. So each result array ends at the
  specification's whole-image function of the image, and the image itself is unchanged.
-/
import proofs.«114094_j2216203124849_2_alg».proof.Proof.KIFrame
import proofs.«114094_j2216203124849_2_alg».proof.Proof.PaySpec
import proofs.«114094_j2216203124849_2_alg».proof.Proof.Spec
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Region Cert.Stencil Cert.PaySpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The image as the region finds it. -/
abbrev img (c : Dev nD) : SImg.Idx → EReal := V m c main_arg0

/-- A grid point as a band number, and back. -/
def zOf (t : Fin cfg0.N) : Fin 224 := ⟨t.val, lt_of_lt_of_eq t.isLt N_0⟩
def tOf (z : Fin 224) : Fin cfg0.N := ⟨z.val, lt_of_lt_of_eq z.isLt N_0.symm⟩

/-! ## The specification does not depend on how "band 0" is spelt -/

theorem predAt_iff (cur prev : Band) {p q : Prop} [Decidable p] [Decidable q] (h : p ↔ q) (y x : Fin 512) :
    predAt cur prev p y x = predAt cur prev q y x := by
  by_cases hq : q
  · have hp : p := h.mpr hq
    simp only [predAt, if_pos hp, if_pos hq]
  · have hp : ¬ p := fun hp => hq (h.mp hp)
    simp only [predAt, if_neg hp, if_neg hq]
theorem residAt_iff (cur prev : Band) {p q : Prop} [Decidable p] [Decidable q] (h : p ↔ q) (y x : Fin 512) :
    residAt cur prev p y x = residAt cur prev q y x := by
  unfold residAt; rw [predAt_iff cur prev h]
theorem mappedAt_iff (cur prev : Band) {p q : Prop} [Decidable p] [Decidable q] (h : p ↔ q) (y x : Fin 512) :
    mappedAt cur prev p y x = mappedAt cur prev q y x := by
  unfold mappedAt; rw [residAt_iff cur prev h]
theorem reconAt_iff (cur prev : Band) {p q : Prop} [Decidable p] [Decidable q] (h : p ↔ q) (y x : Fin 512) :
    reconAt cur prev p y x = reconAt cur prev q y x := by
  unfold reconAt; rw [predAt_iff cur prev h, residAt_iff cur prev h]

/-! ## The schedule, decided over the grid -/

/-- The body is handed its own position as the band number; -/
theorem coord0 : ∀ t : Fin cfg0.N, ((grid0.coords t) 0).val = t.val :=
  (by decide +kernel : ∀ t : Fin grid0.N, _)
/-- the first input window is at the band itself, -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- and the second at the band before it (band 0 at band 0). -/
theorem idx1 : ∀ t : Fin cfg0.N, win0_1.index t (0 : Fin 3) = t.val - 1 ∧ win0_1.index t (1 : Fin 3) = 0 ∧ win0_1.index t (2 : Fin 3) = 0 :=
  (by decide +kernel : ∀ t : Fin grid0.N, _)

theorem emb0 (t : Fin cfg0.N) (y x : Fin 512) :
    ((cfg0.win 0).blk t).view.emb (ix3 (0 : Fin 1) y x) = (ix3 (zOf t) y x : S224x512x512.Idx) := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 512 + 1 * y.val = y.val; omega
  | ⟨2, _⟩ => show win0_0.index t (2 : Fin 3) * 512 + 1 * x.val = x.val; omega
theorem emb1 (t : Fin cfg0.N) (y x : Fin 512) :
    ((cfg0.win 1).blk t).view.emb (ix3 (0 : Fin 1) y x) = (ix3 (pz (zOf t)) y x : S224x512x512.Idx) := by
  obtain ⟨e0, e1, e2⟩ := idx1 t
  funext a; apply Fin.ext
  match a with
  | ⟨0, _⟩ => show win0_1.index t (0 : Fin 3) * 1 + 1 * 0 = t.val - 1; omega
  | ⟨1, _⟩ => show win0_1.index t (1 : Fin 3) * 512 + 1 * y.val = y.val; omega
  | ⟨2, _⟩ => show win0_1.index t (2 : Fin 3) * 512 + 1 * x.val = x.val; omega

/-- The first input block is band `t` of the image, the second band `t − 1`. -/
theorem cur_band (c : Dev nD) (t : Fin cfg0.N) : bandOf (iblk m c 0 t) = band (img m c) (zOf t) := by
  funext y x
  show V m c main_arg0 (((cfg0.win 0).blk t).view.emb (ix3 (0 : Fin 1) y x)) = V m c main_arg0 (ix3 (zOf t) y x)
  rw [emb0]
theorem prev_band (c : Dev nD) (t : Fin cfg0.N) : bandOf (iblk m c 1 t) = band (img m c) (pz (zOf t)) := by
  funext y x
  show V m c main_arg0 (((cfg0.win 1).blk t).view.emb (ix3 (0 : Fin 1) y x)) = V m c main_arg0 (ix3 (pz (zOf t)) y x)
  rw [emb1]

/-- The body's band-0 test is the band number being 0. -/
theorem first_iff (t : Fin cfg0.N) : bandNo t = 0#32 ↔ (zOf t).val = 0 := by
  have ht : t.val < 224 := (zOf t).isLt
  unfold bandNo
  rw [coord0 t]
  constructor
  · intro h
    have h' := congrArg BitVec.toNat h
    simp only [BitVec.toNat_ofNat] at h'
    show t.val = 0
    omega
  · intro h
    have h' : t.val = 0 := h
    rw [h']

/-! ## Output window 2: pred -/

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The element of block `t` at row `y`, column `x` sits in the array at band `t`, row `y`, column `x`. -/
theorem emb2 (t : Fin cfg0.N) (y x : Fin 512) :
    ((cfg0.win 2).blk t).view.emb (ix3 (0 : Fin 1) y x) = (ix3 (zOf t) y x : S224x512x512.Idx) := by
  obtain ⟨e0, e1, e2⟩ := idx2 t
  funext a; apply Fin.ext
  match a with
  | ⟨0, _⟩ => show win0_2.index t (0 : Fin 3) * 1 + 1 * 0 = t.val; omega
  | ⟨1, _⟩ => show win0_2.index t (1 : Fin 3) * 512 + 1 * y.val = y.val; omega
  | ⟨2, _⟩ => show win0_2.index t (2 : Fin 3) * 512 + 1 * x.val = x.val; omega

/-- What band `t` writes back is block `t` of the specification's function of the image. -/
theorem flushed2_eq (c : Dev nD) (t : Fin cfg0.N) :
    (dats m 0 c).flushed 2 t = ((cfg0.win 2).blk t).view.read (Elt Ideal) (Cert.Stencil.pred (img m c)) := by
  show (cfg0.win 2).cut (grid0.coords t) ((dats m 0 c).after 2 t) = _
  rw [after2]
  unfold left2
  rw [View.canon_unit_zero zeros]
  simp only [View.ld_unit_zero (S := S1x512x512) zeros]
  funext j
  obtain ⟨z0, y, x, rfl⟩ : ∃ (z0 : Fin 1) (y x : Fin 512), j = ix3 z0 y x := ⟨j 0, j 1, j 2, eq_ix3 j⟩
  obtain rfl : z0 = 0 := Subsingleton.elim _ _
  refine (pay1_at (bandNo t) (iblk m c 0 t) (iblk m c 1 t) y x).trans ?_
  show _ = Cert.Stencil.pred (img m c) (((cfg0.win 2).blk t).view.emb (ix3 (0 : Fin 1) y x))
  rw [emb2, cur_band, prev_band]
  exact predAt_iff _ _ (first_iff t) y x

theorem mem_blk2 (t : Fin cfg0.N) (i : S224x512x512.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v0_0).slice (win0_2.rect t)).set ↔ _
  rw [View.set_slice_whole, Rect.mem_set_unit]
  exact Iff.rfl

/-- Every element of the array lies in the block of its own band. -/
theorem cover2 (i : S224x512x512.Idx) :
    ∃ t : Fin cfg0.N, (cfg0.win 2).flush t = true ∧ i ∈ ((cfg0.win 2).blk t).view.set := by
  have hi0 : (i 0).val < 224 := (i 0).isLt
  have hi1 : (i 1).val < 512 := (i 1).isLt
  have hi2 : (i 2).val < 512 := (i 2).isLt
  obtain ⟨e0, e1, e2⟩ := idx2 (tOf (i 0))
  have ht : (tOf (i 0)).val = (i 0).val := rfl
  refine ⟨tOf (i 0), flush0_2 _, ?_⟩
  rw [mem_blk2]
  intro a
  match a with
  | ⟨0, _⟩ => show win0_2.index (tOf (i 0)) (0 : Fin 3) * 1 ≤ (i 0).val ∧ (i 0).val < win0_2.index (tOf (i 0)) (0 : Fin 3) * 1 + 1; omega
  | ⟨1, _⟩ => show win0_2.index (tOf (i 0)) (1 : Fin 3) * 512 ≤ (i 1).val ∧ (i 1).val < win0_2.index (tOf (i 0)) (1 : Fin 3) * 512 + 512; omega
  | ⟨2, _⟩ => show win0_2.index (tOf (i 0)) (2 : Fin 3) * 512 ≤ (i 2).val ∧ (i 2).val < win0_2.index (tOf (i 0)) (2 : Fin 3) * 512 + 512; omega

/-- The array after the run. -/
theorem final2 (c : Dev nD) : (dats m 0 c).arrAt 2 cfg0.N = Cert.Stencil.pred (img m c) :=
  (dats m 0 c).arrAt_eq_of_cover 2 _ (fun t _ => flushed2_eq m c t) cover2

/-! ## Output window 3: resid -/

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- The element of block `t` at row `y`, column `x` sits in the array at band `t`, row `y`, column `x`. -/
theorem emb3 (t : Fin cfg0.N) (y x : Fin 512) :
    ((cfg0.win 3).blk t).view.emb (ix3 (0 : Fin 1) y x) = (ix3 (zOf t) y x : S224x512x512.Idx) := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 512 + 1 * y.val = y.val; omega
  | ⟨2, _⟩ => show win0_3.index t (2 : Fin 3) * 512 + 1 * x.val = x.val; omega

/-- What band `t` writes back is block `t` of the specification's function of the image. -/
theorem flushed3_eq (c : Dev nD) (t : Fin cfg0.N) :
    (dats m 0 c).flushed 3 t = ((cfg0.win 3).blk t).view.read (Elt Ideal) (Cert.Stencil.resid (img m c)) := by
  show (cfg0.win 3).cut (grid0.coords t) ((dats m 0 c).after 3 t) = _
  rw [after3]
  unfold left3
  rw [View.canon_unit_zero zeros]
  simp only [View.ld_unit_zero (S := S1x512x512) zeros]
  funext j
  obtain ⟨z0, y, x, rfl⟩ : ∃ (z0 : Fin 1) (y x : Fin 512), j = ix3 z0 y x := ⟨j 0, j 1, j 2, eq_ix3 j⟩
  obtain rfl : z0 = 0 := Subsingleton.elim _ _
  refine (pay2_at (bandNo t) (iblk m c 0 t) (iblk m c 1 t) y x).trans ?_
  show _ = Cert.Stencil.resid (img m c) (((cfg0.win 3).blk t).view.emb (ix3 (0 : Fin 1) y x))
  rw [emb3, cur_band, prev_band]
  exact residAt_iff _ _ (first_iff t) y x

theorem mem_blk3 (t : Fin cfg0.N) (i : S224x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0_1).slice (win0_3.rect t)).set ↔ _
  rw [View.set_slice_whole, Rect.mem_set_unit]
  exact Iff.rfl

/-- Every element of the array lies in the block of its own band. -/
theorem cover3 (i : S224x512x512.Idx) :
    ∃ t : Fin cfg0.N, (cfg0.win 3).flush t = true ∧ i ∈ ((cfg0.win 3).blk t).view.set := by
  have hi0 : (i 0).val < 224 := (i 0).isLt
  have hi1 : (i 1).val < 512 := (i 1).isLt
  have hi2 : (i 2).val < 512 := (i 2).isLt
  obtain ⟨e0, e1, e2⟩ := idx3 (tOf (i 0))
  have ht : (tOf (i 0)).val = (i 0).val := rfl
  refine ⟨tOf (i 0), flush0_3 _, ?_⟩
  rw [mem_blk3]
  intro a
  match a with
  | ⟨0, _⟩ => show win0_3.index (tOf (i 0)) (0 : Fin 3) * 1 ≤ (i 0).val ∧ (i 0).val < win0_3.index (tOf (i 0)) (0 : Fin 3) * 1 + 1; omega
  | ⟨1, _⟩ => show win0_3.index (tOf (i 0)) (1 : Fin 3) * 512 ≤ (i 1).val ∧ (i 1).val < win0_3.index (tOf (i 0)) (1 : Fin 3) * 512 + 512; omega
  | ⟨2, _⟩ => show win0_3.index (tOf (i 0)) (2 : Fin 3) * 512 ≤ (i 2).val ∧ (i 2).val < win0_3.index (tOf (i 0)) (2 : Fin 3) * 512 + 512; omega

/-- The array after the run. -/
theorem final3 (c : Dev nD) : (dats m 0 c).arrAt 3 cfg0.N = Cert.Stencil.resid (img m c) :=
  (dats m 0 c).arrAt_eq_of_cover 3 _ (fun t _ => flushed3_eq m c t) cover3

/-! ## Output window 4: mapped -/

theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The element of block `t` at row `y`, column `x` sits in the array at band `t`, row `y`, column `x`. -/
theorem emb4 (t : Fin cfg0.N) (y x : Fin 512) :
    ((cfg0.win 4).blk t).view.emb (ix3 (0 : Fin 1) y x) = (ix3 (zOf t) y x : S224x512x512.Idx) := by
  obtain ⟨e0, e1, e2⟩ := idx4 t
  funext a; apply Fin.ext
  match a with
  | ⟨0, _⟩ => show win0_4.index t (0 : Fin 3) * 1 + 1 * 0 = t.val; omega
  | ⟨1, _⟩ => show win0_4.index t (1 : Fin 3) * 512 + 1 * y.val = y.val; omega
  | ⟨2, _⟩ => show win0_4.index t (2 : Fin 3) * 512 + 1 * x.val = x.val; omega

/-- What band `t` writes back is block `t` of the specification's function of the image. -/
theorem flushed4_eq (c : Dev nD) (t : Fin cfg0.N) :
    (dats m 0 c).flushed 4 t = ((cfg0.win 4).blk t).view.read (Elt Ideal) (Cert.Stencil.mapped (img m c)) := by
  show (cfg0.win 4).cut (grid0.coords t) ((dats m 0 c).after 4 t) = _
  rw [after4]
  unfold left4
  rw [View.canon_unit_zero zeros]
  simp only [View.ld_unit_zero (S := S1x512x512) zeros]
  funext j
  obtain ⟨z0, y, x, rfl⟩ : ∃ (z0 : Fin 1) (y x : Fin 512), j = ix3 z0 y x := ⟨j 0, j 1, j 2, eq_ix3 j⟩
  obtain rfl : z0 = 0 := Subsingleton.elim _ _
  refine (pay3_at (bandNo t) (iblk m c 0 t) (iblk m c 1 t) y x).trans ?_
  show _ = Cert.Stencil.mapped (img m c) (((cfg0.win 4).blk t).view.emb (ix3 (0 : Fin 1) y x))
  rw [emb4, cur_band, prev_band]
  exact mappedAt_iff _ _ (first_iff t) y x

theorem mem_blk4 (t : Fin cfg0.N) (i : S224x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v0_2).slice (win0_4.rect t)).set ↔ _
  rw [View.set_slice_whole, Rect.mem_set_unit]
  exact Iff.rfl

/-- Every element of the array lies in the block of its own band. -/
theorem cover4 (i : S224x512x512.Idx) :
    ∃ t : Fin cfg0.N, (cfg0.win 4).flush t = true ∧ i ∈ ((cfg0.win 4).blk t).view.set := by
  have hi0 : (i 0).val < 224 := (i 0).isLt
  have hi1 : (i 1).val < 512 := (i 1).isLt
  have hi2 : (i 2).val < 512 := (i 2).isLt
  obtain ⟨e0, e1, e2⟩ := idx4 (tOf (i 0))
  have ht : (tOf (i 0)).val = (i 0).val := rfl
  refine ⟨tOf (i 0), flush0_4 _, ?_⟩
  rw [mem_blk4]
  intro a
  match a with
  | ⟨0, _⟩ => show win0_4.index (tOf (i 0)) (0 : Fin 3) * 1 ≤ (i 0).val ∧ (i 0).val < win0_4.index (tOf (i 0)) (0 : Fin 3) * 1 + 1; omega
  | ⟨1, _⟩ => show win0_4.index (tOf (i 0)) (1 : Fin 3) * 512 ≤ (i 1).val ∧ (i 1).val < win0_4.index (tOf (i 0)) (1 : Fin 3) * 512 + 512; omega
  | ⟨2, _⟩ => show win0_4.index (tOf (i 0)) (2 : Fin 3) * 512 ≤ (i 2).val ∧ (i 2).val < win0_4.index (tOf (i 0)) (2 : Fin 3) * 512 + 512; omega

/-- The array after the run. -/
theorem final4 (c : Dev nD) : (dats m 0 c).arrAt 4 cfg0.N = Cert.Stencil.mapped (img m c) :=
  (dats m 0 c).arrAt_eq_of_cover 4 _ (fun t _ => flushed4_eq m c t) cover4

/-! ## Output window 5: recon -/

theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- The element of block `t` at row `y`, column `x` sits in the array at band `t`, row `y`, column `x`. -/
theorem emb5 (t : Fin cfg0.N) (y x : Fin 512) :
    ((cfg0.win 5).blk t).view.emb (ix3 (0 : Fin 1) y x) = (ix3 (zOf t) y x : S224x512x512.Idx) := by
  obtain ⟨e0, e1, e2⟩ := idx5 t
  funext a; apply Fin.ext
  match a with
  | ⟨0, _⟩ => show win0_5.index t (0 : Fin 3) * 1 + 1 * 0 = t.val; omega
  | ⟨1, _⟩ => show win0_5.index t (1 : Fin 3) * 512 + 1 * y.val = y.val; omega
  | ⟨2, _⟩ => show win0_5.index t (2 : Fin 3) * 512 + 1 * x.val = x.val; omega

/-- What band `t` writes back is block `t` of the specification's function of the image. -/
theorem flushed5_eq (c : Dev nD) (t : Fin cfg0.N) :
    (dats m 0 c).flushed 5 t = ((cfg0.win 5).blk t).view.read (Elt Ideal) (Cert.Stencil.recon (img m c)) := by
  show (cfg0.win 5).cut (grid0.coords t) ((dats m 0 c).after 5 t) = _
  rw [after5]
  unfold left5
  rw [View.canon_unit_zero zeros]
  simp only [View.ld_unit_zero (S := S1x512x512) zeros]
  funext j
  obtain ⟨z0, y, x, rfl⟩ : ∃ (z0 : Fin 1) (y x : Fin 512), j = ix3 z0 y x := ⟨j 0, j 1, j 2, eq_ix3 j⟩
  obtain rfl : z0 = 0 := Subsingleton.elim _ _
  refine (pay4_at (bandNo t) (iblk m c 0 t) (iblk m c 1 t) y x).trans ?_
  show _ = Cert.Stencil.recon (img m c) (((cfg0.win 5).blk t).view.emb (ix3 (0 : Fin 1) y x))
  rw [emb5, cur_band, prev_band]
  exact reconAt_iff _ _ (first_iff t) y x

theorem mem_blk5 (t : Fin cfg0.N) (i : S224x512x512.Idx) :
    i ∈ ((cfg0.win 5).blk t).view.set ↔ ∀ a : Fin 3, win0_5.index t a * S1x512x512.size a ≤ (i a).val ∧ (i a).val < win0_5.index t a * S1x512x512.size a + S1x512x512.size a := by
  show i ∈ ((View.whole main_v0_3).slice (win0_5.rect t)).set ↔ _
  rw [View.set_slice_whole, Rect.mem_set_unit]
  exact Iff.rfl

/-- Every element of the array lies in the block of its own band. -/
theorem cover5 (i : S224x512x512.Idx) :
    ∃ t : Fin cfg0.N, (cfg0.win 5).flush t = true ∧ i ∈ ((cfg0.win 5).blk t).view.set := by
  have hi0 : (i 0).val < 224 := (i 0).isLt
  have hi1 : (i 1).val < 512 := (i 1).isLt
  have hi2 : (i 2).val < 512 := (i 2).isLt
  obtain ⟨e0, e1, e2⟩ := idx5 (tOf (i 0))
  have ht : (tOf (i 0)).val = (i 0).val := rfl
  refine ⟨tOf (i 0), flush0_5 _, ?_⟩
  rw [mem_blk5]
  intro a
  match a with
  | ⟨0, _⟩ => show win0_5.index (tOf (i 0)) (0 : Fin 3) * 1 ≤ (i 0).val ∧ (i 0).val < win0_5.index (tOf (i 0)) (0 : Fin 3) * 1 + 1; omega
  | ⟨1, _⟩ => show win0_5.index (tOf (i 0)) (1 : Fin 3) * 512 ≤ (i 1).val ∧ (i 1).val < win0_5.index (tOf (i 0)) (1 : Fin 3) * 512 + 512; omega
  | ⟨2, _⟩ => show win0_5.index (tOf (i 0)) (2 : Fin 3) * 512 ≤ (i 2).val ∧ (i 2).val < win0_5.index (tOf (i 0)) (2 : Fin 3) * 512 + 512; omega

/-- The array after the run. -/
theorem final5 (c : Dev nD) : (dats m 0 c).arrAt 5 cfg0.N = Cert.Stencil.recon (img m c) :=
  (dats m 0 c).arrAt_eq_of_cover 5 _ (fun t _ => flushed5_eq m c t) cover5

/-! ## The run, read -/

/-- Every weakly fair execution of the idealized kernel terminates, nothing faulting, with its four result arrays at the
    specification's functions of the image and the image unchanged. -/
theorem run : θ_run defs (onTc (τ := τ) (main (F := Ideal))) ⟨m, fun _ => 0, ρ⟩ fun r => ∀ c : Dev nD,
      r.2.mem ((c.tc : Thread nD τ).loc main_v0_0) = Cert.Stencil.pred (img m c)
      ∧ r.2.mem ((c.tc : Thread nD τ).loc main_v0_1) = Cert.Stencil.resid (img m c)
      ∧ r.2.mem ((c.tc : Thread nD τ).loc main_v0_2) = Cert.Stencil.mapped (img m c)
      ∧ r.2.mem ((c.tc : Thread nD τ).loc main_v0_3) = Cert.Stencil.recon (img m c)
      ∧ r.2.mem ((c.tc : Thread nD τ).loc main_arg0) = m ((c.tc : Thread nD τ).loc main_arg0) :=
  (θ_run defs _ _).mono (fun r h c => ⟨(h c 2).trans (final2 m c), (h c 3).trans (final3 m c), (h c 4).trans (final4 m c),
      (h c 5).trans (final5 m c), (h c 0).trans (((dats m 0 c).arrAt_in 0 rfl _).trans (A_eq m c 0))⟩)
    (run_main m ρ)

/-- The same run with its results listed as the program returns them (the residuals and the reconstructions are each
    returned twice). -/
theorem run6 : θ_run defs (onTc (τ := τ) (main (F := Ideal))) ⟨m, fun _ => 0, ρ⟩ fun r => ∀ c : Dev nD,
      r.2.mem ((c.tc : Thread nD τ).loc main_v0_0) = Cert.Stencil.pred (img m c)
      ∧ r.2.mem ((c.tc : Thread nD τ).loc main_v0_1) = Cert.Stencil.resid (img m c)
      ∧ r.2.mem ((c.tc : Thread nD τ).loc main_v0_1) = Cert.Stencil.resid (img m c)
      ∧ r.2.mem ((c.tc : Thread nD τ).loc main_v0_2) = Cert.Stencil.mapped (img m c)
      ∧ r.2.mem ((c.tc : Thread nD τ).loc main_v0_3) = Cert.Stencil.recon (img m c)
      ∧ r.2.mem ((c.tc : Thread nD τ).loc main_v0_3) = Cert.Stencil.recon (img m c)
      ∧ r.2.mem ((c.tc : Thread nD τ).loc main_arg0) = m ((c.tc : Thread nD τ).loc main_arg0) :=
  (θ_run defs _ _).mono (fun r h c => ⟨(h c).1, (h c).2.1, (h c).2.1, (h c).2.2.1, (h c).2.2.2.1, (h c).2.2.2.1, (h c).2.2.2.2⟩)
    (run m ρ)

end Cert.KernelIdeal.Result

end
-- ==== Proof.RefSpec.lean ====
/-
  The jnp reference, read at one coordinate, is the specification.

  The reference builds the four causal neighbours of a sample by zero padding (one extra row and/or column, then a
  512 × 512 window), the previous band by joining a zero band in front of bands 0 … 222, and the edge cases by selects on
  "row 0", "column 0", "column 511" and "band 0". Inside the image a padded neighbour is the image's own sample, and the
  shifted coordinate is the cyclic one; where a neighbour would fall outside, the select that reads it is not taken, in
  the same order as the specification's case list. So the prediction, the residual, the mapped index and the clamped
  reconstruction of the reference are the specification's whole-image functions, sample by sample.
-/
import proofs.«114094_j2216203124849_2_alg».proof.Proof.RefReadP
import proofs.«114094_j2216203124849_2_alg».proof.Proof.Spec
import Idealize.ShloMosaic.Lib.ValueIdx
import Idealize.ShloMosaic.Lib.KernelVsHost
import Idealize.ShloMosaic.PureOps.Ideal

noncomputable section

namespace Cert.RefSpec

open Idealize.ShloMosaic Idealize.ShloMosaic.ValueIdx Cert.ReferenceIdeal Cert.ReferenceIdeal.Gen Cert.ReferenceIdeal.ReadP Cert.Stencil

/-! ## One-bit conditions -/

/-- Equality of two small naturals, compared as 32-bit words, is the bit of their equality. -/
theorem cmpi_eq_ofNat (n k : Nat) (hn : n < 2 ^ 32) (hk : k < 2 ^ 32) :
    IntOp.cmpi .eq (BitVec.ofNat 32 n) (BitVec.ofNat 32 k) = if n = k then 1#1 else 0#1 := by
  unfold IntOp.cmpi
  by_cases h : n = k
  · subst h; simp
  · rw [if_neg h]
    have hne : (BitVec.ofNat 32 n == BitVec.ofNat 32 k) = false := by
      rw [beq_eq_false_iff_ne]
      intro e
      apply h
      have e' := congrArg BitVec.toNat e
      rw [BitVec.toNat_ofNat, BitVec.toNat_ofNat, Nat.mod_eq_of_lt hn, Nat.mod_eq_of_lt hk] at e'
      exact e'
    simp [hne]

/-- The conjunction of two decided bits. -/
theorem bit_and (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The complement of a decided bit. -/
theorem bit_not (p : Prop) [Decidable p] :
    ~~~(if p then 1#1 else 0#1 : BitVec 1) = if ¬p then 1#1 else 0#1 := by
  by_cases hp : p <;> simp [hp]

/-- A select on a decided bit is the `if`. -/
theorem select_ite {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

/-! ## The edge conditions of the reference -/

/-- "row 0". -/
theorem row0 (j : S1x512x1.Idx) :
    val_main_v13 (F := Ideal) j = if (j 1).val = 0 then 1#1 else 0#1 := by
  have h : (j 1).val < 512 := (j 1).isLt
  rw [val_main_v13_apply, val_main_v9_apply, val_main_v8_apply, val_main_v12_apply, val_main_c_3_apply]
  exact cmpi_eq_ofNat (j 1).val 0 (by omega) (by norm_num)

/-- "column 0". -/
theorem col0 (j : S1x1x512.Idx) :
    val_main_v15 (F := Ideal) j = if (j 2).val = 0 then 1#1 else 0#1 := by
  have h : (j 2).val < 512 := (j 2).isLt
  rw [val_main_v15_apply, val_main_v11_apply, val_main_v10_apply, val_main_v14_apply, val_main_c_4_apply]
  exact cmpi_eq_ofNat (j 2).val 0 (by omega) (by norm_num)

/-- "column 511". -/
theorem col511 (j : S1x1x512.Idx) :
    val_main_v17 (F := Ideal) j = if (j 2).val = 511 then 1#1 else 0#1 := by
  have h : (j 2).val < 512 := (j 2).isLt
  rw [val_main_v17_apply, val_main_v11_apply, val_main_v10_apply, val_main_v16_apply, val_main_c_5_apply]
  exact cmpi_eq_ofNat (j 2).val 511 (by omega) (by norm_num)

/-- "band 0". -/
theorem band0 (j : S224x1x1.Idx) :
    val_main_v57 (F := Ideal) j = if (j 0).val = 0 then 1#1 else 0#1 := by
  have h : (j 0).val < 224 := (j 0).isLt
  rw [val_main_v57_apply, val_main_v55_apply, val_main_v54_apply, val_main_v56_apply, val_main_c_11_apply]
  exact cmpi_eq_ofNat (j 0).val 0 (by omega) (by norm_num)

variable (z : Fin 224) (y x : Fin 512)

/-- Row 0 right of the origin. -/
theorem mask_top : val_main_call4_v0 (F := Ideal) (ix3 z y x) = if y.val = 0 ∧ ¬ x.val = 0 then 1#1 else 0#1 := by
  rw [val_main_call4_v0_apply, val_main_v24_apply, val_main_v22_apply, val_main_v23_apply, val_main_v21_apply,
    row0, col0, bit_not, bit_and]

/-- Column 0 below row 0. -/
theorem mask_left : val_main_call5_v0 (F := Ideal) (ix3 z y x) = if ¬ y.val = 0 ∧ x.val = 0 then 1#1 else 0#1 := by
  rw [val_main_call5_v0_apply, val_main_v31_apply, val_main_v29_apply, val_main_v30_apply, val_main_v28_apply,
    row0, col0, bit_not, bit_and]

/-- Column 511 below row 0. -/
theorem mask_right : val_main_call6_v0 (F := Ideal) (ix3 z y x) = if ¬ y.val = 0 ∧ x.val = 511 then 1#1 else 0#1 := by
  rw [val_main_call6_v0_apply, val_main_v39_apply, val_main_v37_apply, val_main_v38_apply, val_main_v36_apply,
    row0, col511, bit_not, bit_and]

/-- The origin, as the local sum's last select reads it. -/
theorem mask_origin : val_main_call7_v1 (F := Ideal) (ix3 z y x) = if y.val = 0 ∧ x.val = 0 then 1#1 else 0#1 := by
  rw [val_main_call7_v1_apply, val_main_v47_apply, val_main_v45_apply, val_main_v46_apply, row0, col0, bit_and]

/-- The origin, as the prediction's last select reads it. -/
theorem mask_origin' : val_main_call10_v0 (F := Ideal) (ix3 z y x) = if y.val = 0 ∧ x.val = 0 then 1#1 else 0#1 := by
  rw [val_main_call10_v0_apply, val_main_v64_apply, val_main_v62_apply, val_main_v63_apply, row0, col0, bit_and]

/-- Band 0, as the two band selects read it. -/
theorem mask_band : val_main_call8_v0 (F := Ideal) (ix3 z y x) = if z.val = 0 then 1#1 else 0#1 := by
  rw [val_main_call8_v0_apply, band0]
theorem mask_band' : val_main_call9_v1 (F := Ideal) (ix3 z y x) = if z.val = 0 then 1#1 else 0#1 := by
  rw [val_main_call9_v1_apply, band0]

/-! ## The clamp bounds -/

/-- The 32-bit integer −32768 converted to a float is the f32 word C7000000. -/
theorem clo_eq : FloatOps.sitofp (F := Ideal) .f32 (4294934528#32 : BitVec 32) = clo := by
  have h : (4294934528#32 : BitVec 32).toInt = -32768 := by decide
  show (((4294934528#32 : BitVec 32).toInt : ℝ) : EReal) = Ideal.ofBits .f32 0xC7000000#32
  rw [h]
  simp [Ideal.ofBits, Ideal.ieee, -EReal.coe_mul]; norm_num

/-- The 32-bit integer 32767 converted to a float is the f32 word 46FFFE00. -/
theorem chi_eq : FloatOps.sitofp (F := Ideal) .f32 (32767#32 : BitVec 32) = chi := by
  have h : (32767#32 : BitVec 32).toInt = 32767 := by decide
  show (((32767#32 : BitVec 32).toInt : ℝ) : EReal) = Ideal.ofBits .f32 0x46FFFE00#32
  rw [h]
  simp [Ideal.ofBits, Ideal.ieee, -EReal.coe_mul]; norm_num

/-! ## The four padded neighbours, read inside the image

Each neighbour array is the image padded with one zero row and/or column and cut back to 512 × 512. At a coordinate whose
neighbour lies inside the image the padded array reads the image there; the cyclic coordinate and the shifted one agree. -/

variable (x0 : (⟨S224x512x512, .f32⟩ : BufTy).Contents (Elt Ideal))

/-- West: right of column 0 it is the sample one column to the left. -/
theorem west_eq (hx : ¬ x.val = 0) :
    val_main_v1 (F := Ideal) x0 (ix3 z y x) = x0 (ix3 z y (prv x)) := by
  have hxl : x.val < 512 := x.isLt
  rw [val_main_v1_apply]
  unfold val_main_v0
  exact pad_apply_of_inside _ _ _ x0 _ _ _ _ (ix3 z y (prv x)) (fun a => match a with
    | ⟨0, _⟩ => by show z.val = 0 + z.val * (0 + 1); omega
    | ⟨1, _⟩ => by show y.val = 0 + y.val * (0 + 1); omega
    | ⟨2, _⟩ => by show x.val = 1 + ((x.val + 511) % 512) * (0 + 1); omega)

/-- North: below row 0 it is the sample one row up. -/
theorem north_eq (hy : ¬ y.val = 0) :
    val_main_v3 (F := Ideal) x0 (ix3 z y x) = x0 (ix3 z (prv y) x) := by
  have hyl : y.val < 512 := y.isLt
  rw [val_main_v3_apply]
  unfold val_main_v2
  exact pad_apply_of_inside _ _ _ x0 _ _ _ _ (ix3 z (prv y) x) (fun a => match a with
    | ⟨0, _⟩ => by show z.val = 0 + z.val * (0 + 1); omega
    | ⟨1, _⟩ => by show y.val = 1 + ((y.val + 511) % 512) * (0 + 1); omega
    | ⟨2, _⟩ => by show x.val = 0 + x.val * (0 + 1); omega)

/-- North-west: below row 0 and right of column 0 it is the sample one row up, one column to the left. -/
theorem northwest_eq (hy : ¬ y.val = 0) (hx : ¬ x.val = 0) :
    val_main_v5 (F := Ideal) x0 (ix3 z y x) = x0 (ix3 z (prv y) (prv x)) := by
  have hyl : y.val < 512 := y.isLt
  have hxl : x.val < 512 := x.isLt
  rw [val_main_v5_apply]
  unfold val_main_v4
  exact pad_apply_of_inside _ _ _ x0 _ _ _ _ (ix3 z (prv y) (prv x)) (fun a => match a with
    | ⟨0, _⟩ => by show z.val = 0 + z.val * (0 + 1); omega
    | ⟨1, _⟩ => by show y.val = 1 + ((y.val + 511) % 512) * (0 + 1); omega
    | ⟨2, _⟩ => by show x.val = 1 + ((x.val + 511) % 512) * (0 + 1); omega)

/-- North-east: below row 0 and left of column 511 it is the sample one row up, one column to the right. -/
theorem northeast_eq (hy : ¬ y.val = 0) (hx : ¬ x.val = 511) :
    val_main_v7 (F := Ideal) x0 (ix3 z y x) = x0 (ix3 z (prv y) (nxt x)) := by
  have hyl : y.val < 512 := y.isLt
  have hxl : x.val < 512 := x.isLt
  rw [val_main_v7_apply]
  unfold val_main_v6
  exact pad_apply_of_inside _ _ _ x0 _ _ _ _ (ix3 z (prv y) (nxt x)) (fun a => match a with
    | ⟨0, _⟩ => by show z.val = 0 + z.val * (0 + 1); omega
    | ⟨1, _⟩ => by show y.val = 1 + ((y.val + 511) % 512) * (0 + 1); omega
    | ⟨2, _⟩ => by show 1 + x.val = 0 + ((x.val + 1) % 512) * (0 + 1); omega)

/-- The previous band: after band 0 the joined array reads the image one band back. -/
theorem prev_eq (hz : ¬ z.val = 0) :
    val_main_v53 (F := Ideal) x0 (ix3 z y x) = x0 (ix3 (pz z) y x) := by
  have hzl : z.val < 224 := z.isLt
  unfold val_main_v53
  refine (concatenate_pair_apply_right (0 : Fin 3) (val_main_v51 (F := Ideal)) (val_main_v52 (F := Ideal) x0)
    concatenates_S1x512x512_S223x512x512_S224x512x512_d0 (ix3 z y x) rfl rfl
    (ix3 (⟨z.val - 1, by omega⟩ : Fin 223) y x)
    (fun b hb => match b, hb with
      | ⟨0, _⟩, hb => absurd rfl hb
      | ⟨1, _⟩, _ => rfl
      | ⟨2, _⟩, _ => rfl)
    (by show (z.val - 1) + 1 = z.val; omega)).trans ?_
  rw [val_main_v52_apply]
  refine congrArg x0 (funext fun a => ?_)
  match a with
  | ⟨0, _⟩ => rfl
  | ⟨1, _⟩ => rfl
  | ⟨2, _⟩ => rfl

/-! ## The local sum -/

/-- The reference's local sum (its chain of four selects over the interior sum) is the specification's. -/
theorem sigma_eq : val_main_v48 (F := Ideal) x0 (ix3 z y x) = sigmaAt (band x0 z) y x := by
  have hxl : x.val < 512 := x.isLt
  rw [val_main_v48_apply, mask_origin, select_ite, val_main_v44_apply, mask_right, select_ite,
    val_main_v35_apply, mask_left, select_ite, val_main_v27_apply, mask_top, select_ite]
  unfold sigmaAt
  split_ifs with h1 h2 h3 h4
  · -- the origin: the zero word
    rw [val_main_call7_v2_apply, val_main_call7_v0_apply, val_main_cst_8_apply]; rfl
  · -- the last column below row 0
    rw [val_main_v43_apply, val_main_v40_apply, val_main_v42_apply, val_main_v41_apply, val_main_cst_7_apply,
      west_eq z y x x0 (by omega), northwest_eq z y x x0 h2.1 (by omega), north_eq z y x x0 h2.1]
    rfl
  · -- the first column below row 0
    rw [val_main_v34_apply, val_main_v33_apply, val_main_cst_6_apply, val_main_v32_apply,
      north_eq z y x x0 h3.1, northeast_eq z y x x0 h3.1 (by omega)]
    rfl
  · -- row 0 right of the origin
    rw [val_main_v26_apply, val_main_v25_apply, val_main_cst_apply, west_eq z y x x0 h4.2]
    rfl
  · -- the interior
    have hy : ¬ y.val = 0 := fun hy => h4 ⟨hy, fun hx => h1 ⟨hy, hx⟩⟩
    have hx : ¬ x.val = 0 := fun hx => h3 ⟨hy, hx⟩
    have hx' : ¬ x.val = 511 := fun hx' => h2 ⟨hy, hx'⟩
    rw [val_main_v20_apply, val_main_v19_apply, val_main_v18_apply,
      west_eq z y x x0 hx, northwest_eq z y x x0 hy hx, north_eq z y x x0 hy, northeast_eq z y x x0 hy hx']
    rfl

/-- The spatial prediction: a quarter of the local sum. -/
theorem spatial_eq : val_main_v50 (F := Ideal) x0 (ix3 z y x) = sigmaAt (band x0 z) y x * cq := by
  rw [val_main_v50_apply, sigma_eq, val_main_v49_apply, val_main_cst_9_apply]; rfl

/-! ## The four results -/

/-- The prediction at a coordinate. -/
theorem pred_at : val_main_v66 (F := Ideal) x0 (ix3 z y x)
    = predAt (band x0 z) (band x0 (pz z)) (z.val = 0) y x := by
  rw [val_main_v66_apply, mask_origin', select_ite, val_main_v65_apply, mask_band', select_ite,
    val_main_v61_apply, mask_band, select_ite, val_main_v60_apply, val_main_v58_apply, spatial_eq,
    val_main_v59_apply, val_main_cst_12_apply, val_main_call9_v2_apply, val_main_call9_v0_apply, val_main_cst_13_apply]
  unfold predAt
  split_ifs with h1 h2 h2
  · rfl
  · rw [prev_eq z y x x0 h2]; rfl
  · rfl
  · rw [prev_eq z y x x0 h2]; rfl

theorem pred_eq (x0 : (⟨S224x512x512, .f32⟩ : BufTy).Contents (Elt Ideal)) :
    val_main_v66 (F := Ideal) x0 = Cert.Stencil.pred x0 := by
  funext i
  obtain ⟨z, y, x, rfl⟩ : ∃ (z : Fin 224) (y x : Fin 512), i = ix3 z y x := ⟨i 0, i 1, i 2, eq_ix3 i⟩
  exact pred_at z y x x0

theorem resid_eq (x0 : (⟨S224x512x512, .f32⟩ : BufTy).Contents (Elt Ideal)) :
    val_main_v67 (F := Ideal) x0 = Cert.Stencil.resid x0 := by
  funext i
  obtain ⟨z, y, x, rfl⟩ : ∃ (z : Fin 224) (y x : Fin 512), i = ix3 z y x := ⟨i 0, i 1, i 2, eq_ix3 i⟩
  rw [val_main_v67_apply, pred_at]; rfl

theorem mapped_eq (x0 : (⟨S224x512x512, .f32⟩ : BufTy).Contents (Elt Ideal)) :
    val_main_v78 (F := Ideal) x0 = Cert.Stencil.mapped x0 := by
  funext i
  obtain ⟨z, y, x, rfl⟩ : ∃ (z : Fin 224) (y x : Fin 512), i = ix3 z y x := ⟨i 0, i 1, i 2, eq_ix3 i⟩
  rw [val_main_v78_apply, val_main_v71_apply, val_main_v73_apply, val_main_v77_apply, val_main_v75_apply,
    val_main_v70_apply, val_main_c_14_apply, val_main_v72_apply, val_main_c_15_apply, val_main_v74_apply,
    val_main_c_16_apply, val_main_v76_apply, val_main_c_17_apply, val_main_v69_apply, val_main_v68_apply,
    val_main_v67_apply, pred_at]
  rfl

theorem recon_eq (x0 : (⟨S224x512x512, .f32⟩ : BufTy).Contents (Elt Ideal)) :
    val_main_v80 (F := Ideal) x0 = Cert.Stencil.recon x0 := by
  funext i
  obtain ⟨z, y, x, rfl⟩ : ∃ (z : Fin 224) (y x : Fin 512), i = ix3 z y x := ⟨i 0, i 1, i 2, eq_ix3 i⟩
  rw [val_main_v80_apply, val_main_call13_v4_apply, val_main_call13_v3_apply, val_main_c_19_apply, chi_eq,
    val_main_call13_v2_apply, val_main_call13_v1_apply, val_main_call13_v0_apply, val_main_c_18_apply, clo_eq,
    val_main_v79_apply, val_main_v67_apply, pred_at]
  rfl

end Cert.RefSpec

end
-- ==== Proof.lean ====
/-
  The compressor's causal-prediction stage: the kernel against its jnp reference, over the extended reals.

  Both programs take a float32[224, 512, 512] image (224 spectral bands) and return, per sample, a prediction from four
  causal neighbours in the band and the co-located sample of the previous band, the residual, the residual's mapped
  quantizer index, and the reconstruction clamped to the 16-bit range (the residuals and the reconstructions are each
  returned twice). Proof/Spec.lean states that function once, per band. The kernel walks the bands one grid point at a
  time, reading the band and the band before it as two blocks of the one image array and forming the neighbours by cyclic
  rotations; the reference forms them by zero padding and slicing, and the previous band by concatenating a zero band.
  A rotated-in or padded-in neighbour only ever stands in an arm of the edge selects that is not taken, so at every
  sample both programs are the specification: no algebraic law and no finiteness of the input is used, only the
  case analysis on first row / first column / last column / first band. The reference's clamp bounds are the integers
  −32768 and 32767 converted to float, the kernel's the same two numbers as float words.

  * the three frames: each kernel program's from its region's run (Proof/KFrame.lean, Proof/KIFrame.lean: the launch of a
    pipeline whose two input windows share the image array, the array's share dealt to them by halves); the reference's
    from its run with the results dropped;
  * `preserves`: the idealization rewrote nothing, so there is nothing to state;
  * `algebraic`: the kernel's four result arrays end at the specification's functions of the image
    (Proof/KIValue.lean over Proof/PaySpec.lean), and so do the reference's (Proof/RefSpec.lean), of images that agree.
-/
import proofs.«114094_j2216203124849_2_alg».proof.Defs
import proofs.«114094_j2216203124849_2_alg».proof.Proof.Gen.Kernel
import proofs.«114094_j2216203124849_2_alg».proof.Proof.Gen.KernelIdeal
import proofs.«114094_j2216203124849_2_alg».proof.Proof.Gen.ReferenceIdeal
import proofs.«114094_j2216203124849_2_alg».proof.Proof.Gen.Pre_finite_inputs
import proofs.«114094_j2216203124849_2_alg».proof.Proof.RefRunP
import proofs.«114094_j2216203124849_2_alg».proof.Proof.RefReadP
import proofs.«114094_j2216203124849_2_alg».proof.Proof.Spec
import proofs.«114094_j2216203124849_2_alg».proof.Proof.KFrame
import proofs.«114094_j2216203124849_2_alg».proof.Proof.KIFrame
import proofs.«114094_j2216203124849_2_alg».proof.Proof.KIValue
import proofs.«114094_j2216203124849_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Region.frame m ρ

theorem frame_ki : @Cert.frame_KernelIdeal Cert.KernelIdeal.Gen.facts Cert.Pre_finite_inputs.Gen.facts :=
  fun m ρ _ => Cert.KernelIdeal.Region.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2.2)
    (Cert.ReferenceIdeal.ValueP.run (F := Ideal) m ρ)

/-- From images that agree, the kernel's results (its region's run, read) and the reference's (its run, read one
    operation at a time) are the specification's four functions of the image. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, _, _, _, Cert.KernelIdeal.Result.run6 m ρ, ?_⟩
  refine (θ_run Cert.ReferenceIdeal.defs _ _).mono (fun r h c => ?_) (Cert.ReferenceIdeal.ValueP.run (F := Ideal) m' ρ')
  obtain ⟨h0, h1, h2, h3, h4, h5, h6⟩ := h c
  refine ⟨h0.trans ?_, h1.trans ?_, h2.trans ?_, h3.trans ?_, h4.trans ?_, h5.trans ?_, h6⟩
  · rw [Cert.ReferenceIdeal.ReadP.val_main_v66_eq, Cert.RefSpec.pred_eq, hagree c]
  · rw [Cert.ReferenceIdeal.ReadP.val_main_v67_eq, Cert.RefSpec.resid_eq, hagree c]
  · rw [Cert.ReferenceIdeal.ReadP.val_main_v67_eq, Cert.RefSpec.resid_eq, hagree c]
  · rw [Cert.ReferenceIdeal.ReadP.val_main_v78_eq, Cert.RefSpec.mapped_eq, hagree c]
  · rw [Cert.ReferenceIdeal.ReadP.val_main_v80_eq, Cert.RefSpec.recon_eq, hagree c]
  · rw [Cert.ReferenceIdeal.ReadP.val_main_v80_eq, Cert.RefSpec.recon_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
